-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.sign_bit.Statement Cert.KernelIdeal.S320x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x320x32x32 : Shape := ⟨4, ![16, 320, 32, 32]⟩
abbrev S320x3x1 : Shape := ⟨3, ![320, 3, 1]⟩
abbrev S320x3x3 : Shape := ⟨3, ![320, 3, 3]⟩
abbrev S320x1x3 : Shape := ⟨3, ![320, 1, 3]⟩
abbrev S320x1x1 : Shape := ⟨3, ![320, 1, 1]⟩
abbrev S_ : Shape := ⟨0, ![]⟩

class Facts : Prop where
  bcast_S_S16x320x32x32 : S_.BroadcastsInDim S16x320x32x32 (![] : Fin 0 → Fin S16x320x32x32.rank)
  reducesTo_S16x320x32x32_S_d0_1_2_3 : S16x320x32x32.ReducesTo [0, 1, 2, 3] S_
  h_S_ : 0 < S_.numel
  bcast_S_S320x3x1 : S_.BroadcastsInDim S320x3x1 (![] : Fin 0 → Fin S320x3x1.rank)
  reducesTo_S320x3x1_S_d0_1_2 : S320x3x1.ReducesTo [0, 1, 2] S_
  bcast_S_S320x3x3 : S_.BroadcastsInDim S320x3x3 (![] : Fin 0 → Fin S320x3x3.rank)
  reducesTo_S320x3x3_S_d0_1_2 : S320x3x3.ReducesTo [0, 1, 2] S_
  bcast_S_S320x1x3 : S_.BroadcastsInDim S320x1x3 (![] : Fin 0 → Fin S320x1x3.rank)
  reducesTo_S320x1x3_S_d0_1_2 : S320x1x3.ReducesTo [0, 1, 2] S_
  bcast_S_S320x1x1 : S_.BroadcastsInDim S320x1x1 (![] : Fin 0 → Fin S320x1x1.rank)
  reducesTo_S320x1x1_S_d0_1_2 : S320x1x1.ReducesTo [0, 1, 2] S_

variable [Facts]

def fn_part3 {F : FTy → Type} [FloatOps F] (main_arg11 : FVec F S320x3x1 .f32) (main_arg12 : FVec F S320x1x1 .f32) (main_v48 : IVec S_ 1) (main_v49 : FVec F S320x3x1 .f32) (main_v50 : FVec F S320x3x1 .f32) : IVec S_ 1 :=
  let main_v51 : IVec S320x3x1 1 := cmpf .olt main_v49 main_v50
  let main_c_19 : IVec S_ 1 := constantI S_ 1 1#1
  let main_v52 : IVec S_ 1 := (fun x v => Host.reduce IntOp.andi x v reducesTo_S320x3x1_S_d0_1_2 h_S_) main_v51 main_c_19
  let main_v53 : IVec S_ 1 := andi main_v48 main_v52
  let main_v54 : FVec F S320x3x1 .f32 := Host.absf main_arg11
  let main_cst_20 : FVec F S_ .f32 := constant S_ .f32 0x7F800000#32
  let main_v55 : FVec F S320x3x1 .f32 := broadcastInDim S320x3x1 ![] bcast_S_S320x3x1 main_cst_20
  let main_v56 : IVec S320x3x1 1 := cmpf .olt main_v54 main_v55
  let main_c_21 : IVec S_ 1 := constantI S_ 1 1#1
  let main_v57 : IVec S_ 1 := (fun x v => Host.reduce IntOp.andi x v reducesTo_S320x3x1_S_d0_1_2 h_S_) main_v56 main_c_21
  let main_v58 : IVec S_ 1 := andi main_v53 main_v57
  let main_v59 : FVec F S320x1x1 .f32 := Host.absf main_arg12
  let main_cst_22 : FVec F S_ .f32 := constant S_ .f32 0x7F800000#32
  let main_v60 : FVec F S320x1x1 .f32 := broadcastInDim S320x1x1 ![] bcast_S_S320x1x1 main_cst_22
  let main_v61 : IVec S320x1x1 1 := cmpf .olt main_v59 main_v60
  let main_c_23 : IVec S_ 1 := constantI S_ 1 1#1
  let main_v62 : IVec S_ 1 := (fun x v => Host.reduce IntOp.andi x v reducesTo_S320x1x1_S_d0_1_2 h_S_) main_v61 main_c_23
  let main_v63 : IVec S_ 1 := andi main_v58 main_v62
  main_v63

def fn_part2 {F : FTy → Type} [FloatOps F] (main_arg7 : FVec F S320x3x1 .f32) (main_arg8 : FVec F S320x1x1 .f32) (main_arg9 : FVec F S320x3x1 .f32) (main_arg10 : FVec F S320x3x1 .f32) (main_arg11 : FVec F S320x3x1 .f32) (main_arg12 : FVec F S320x1x1 .f32) (main_v33 : IVec S_ 1) : IVec S_ 1 :=
  let main_v34 : FVec F S320x3x1 .f32 := Host.absf main_arg7
  let main_cst_12 : FVec F S_ .f32 := constant S_ .f32 0x7F800000#32
  let main_v35 : FVec F S320x3x1 .f32 := broadcastInDim S320x3x1 ![] bcast_S_S320x3x1 main_cst_12
  let main_v36 : IVec S320x3x1 1 := cmpf .olt main_v34 main_v35
  let main_c_13 : IVec S_ 1 := constantI S_ 1 1#1
  let main_v37 : IVec S_ 1 := (fun x v => Host.reduce IntOp.andi x v reducesTo_S320x3x1_S_d0_1_2 h_S_) main_v36 main_c_13
  let main_v38 : IVec S_ 1 := andi main_v33 main_v37
  let main_v39 : FVec F S320x1x1 .f32 := Host.absf main_arg8
  let main_cst_14 : FVec F S_ .f32 := constant S_ .f32 0x7F800000#32
  let main_v40 : FVec F S320x1x1 .f32 := broadcastInDim S320x1x1 ![] bcast_S_S320x1x1 main_cst_14
  let main_v41 : IVec S320x1x1 1 := cmpf .olt main_v39 main_v40
  let main_c_15 : IVec S_ 1 := constantI S_ 1 1#1
  let main_v42 : IVec S_ 1 := (fun x v => Host.reduce IntOp.andi x v reducesTo_S320x1x1_S_d0_1_2 h_S_) main_v41 main_c_15
  let main_v43 : IVec S_ 1 := andi main_v38 main_v42
  let main_v44 : FVec F S320x3x1 .f32 := Host.absf main_arg9
  let main_cst_16 : FVec F S_ .f32 := constant S_ .f32 0x7F800000#32
  let main_v45 : FVec F S320x3x1 .f32 := broadcastInDim S320x3x1 ![] bcast_S_S320x3x1 main_cst_16
  let main_v46 : IVec S320x3x1 1 := cmpf .olt main_v44 main_v45
  let main_c_17 : IVec S_ 1 := constantI S_ 1 1#1
  let main_v47 : IVec S_ 1 := (fun x v => Host.reduce IntOp.andi x v reducesTo_S320x3x1_S_d0_1_2 h_S_) main_v46 main_c_17
  let main_v48 : IVec S_ 1 := andi main_v43 main_v47
  let main_v49 : FVec F S320x3x1 .f32 := Host.absf main_arg10
  let main_cst_18 : FVec F S_ .f32 := constant S_ .f32 0x7F800000#32
  let main_v50 : FVec F S320x3x1 .f32 := broadcastInDim S320x3x1 ![] bcast_S_S320x3x1 main_cst_18
  fn_part3 (F := F) main_arg11 main_arg12 main_v48 main_v49 main_v50

def fn_part1 {F : FTy → Type} [FloatOps F] (main_arg4 : FVec F S320x1x3 .f32) (main_arg5 : FVec F S320x3x1 .f32) (main_arg6 : FVec F S320x3x1 .f32) (main_arg7 : FVec F S320x3x1 .f32) (main_arg8 : FVec F S320x1x1 .f32) (main_arg9 : FVec F S320x3x1 .f32) (main_arg10 : FVec F S320x3x1 .f32) (main_arg11 : FVec F S320x3x1 .f32) (main_arg12 : FVec F S320x1x1 .f32) (main_v13 : IVec S_ 1) (main_v16 : IVec S320x3x3 1) : IVec S_ 1 :=
  let main_c_5 : IVec S_ 1 := constantI S_ 1 1#1
  let main_v17 : IVec S_ 1 := (fun x v => Host.reduce IntOp.andi x v reducesTo_S320x3x3_S_d0_1_2 h_S_) main_v16 main_c_5
  let main_v18 : IVec S_ 1 := andi main_v13 main_v17
  let main_v19 : FVec F S320x1x3 .f32 := Host.absf main_arg4
  let main_cst_6 : FVec F S_ .f32 := constant S_ .f32 0x7F800000#32
  let main_v20 : FVec F S320x1x3 .f32 := broadcastInDim S320x1x3 ![] bcast_S_S320x1x3 main_cst_6
  let main_v21 : IVec S320x1x3 1 := cmpf .olt main_v19 main_v20
  let main_c_7 : IVec S_ 1 := constantI S_ 1 1#1
  let main_v22 : IVec S_ 1 := (fun x v => Host.reduce IntOp.andi x v reducesTo_S320x1x3_S_d0_1_2 h_S_) main_v21 main_c_7
  let main_v23 : IVec S_ 1 := andi main_v18 main_v22
  let main_v24 : FVec F S320x3x1 .f32 := Host.absf main_arg5
  let main_cst_8 : FVec F S_ .f32 := constant S_ .f32 0x7F800000#32
  let main_v25 : FVec F S320x3x1 .f32 := broadcastInDim S320x3x1 ![] bcast_S_S320x3x1 main_cst_8
  let main_v26 : IVec S320x3x1 1 := cmpf .olt main_v24 main_v25
  let main_c_9 : IVec S_ 1 := constantI S_ 1 1#1
  let main_v27 : IVec S_ 1 := (fun x v => Host.reduce IntOp.andi x v reducesTo_S320x3x1_S_d0_1_2 h_S_) main_v26 main_c_9
  let main_v28 : IVec S_ 1 := andi main_v23 main_v27
  let main_v29 : FVec F S320x3x1 .f32 := Host.absf main_arg6
  let main_cst_10 : FVec F S_ .f32 := constant S_ .f32 0x7F800000#32
  let main_v30 : FVec F S320x3x1 .f32 := broadcastInDim S320x3x1 ![] bcast_S_S320x3x1 main_cst_10
  let main_v31 : IVec S320x3x1 1 := cmpf .olt main_v29 main_v30
  let main_c_11 : IVec S_ 1 := constantI S_ 1 1#1
  let main_v32 : IVec S_ 1 := (fun x v => Host.reduce IntOp.andi x v reducesTo_S320x3x1_S_d0_1_2 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16x320x32x32 .f32) (main_arg1 : FVec F S320x3x1 .f32) (main_arg2 : FVec F S320x3x3 .f32) (main_arg3 : FVec F S320x3x3 .f32) (main_arg4 : FVec F S320x1x3 .f32) (main_arg5 : FVec F S320x3x1 .f32) (main_arg6 : FVec F S320x3x1 .f32) (main_arg7 : FVec F S320x3x1 .f32) (main_arg8 : FVec F S320x1x1 .f32) (main_arg9 : FVec F S320x3x1 .f32) (main_arg10 : FVec F S320x3x1 .f32) (main_arg11 : FVec F S320x3x1 .f32) (main_arg12 : FVec F S320x1x1 .f32) : IVec S_ 1 :=
  let main_v0 : FVec F S16x320x32x32 .f32 := Host.absf main_arg0
  let main_cst : FVec F S_ .f32 := constant S_ .f32 0x7F800000#32
  let main_v1 : FVec F S16x320x32x32 .f32 := broadcastInDim S16x320x32x32 ![] bcast_S_S16x320x32x32 main_cst
  let main_v2 : IVec S16x320x32x32 1 := cmpf .olt main_v0 main_v1
  let main_c : IVec S_ 1 := constantI S_ 1 1#1
  let main_v3 : IVec S_ 1 := (fun x v => Host.reduce IntOp.andi x v reducesTo_S16x320x32x32_S_d0_1_2_3 h_S_) main_v2 main_c
  let main_v4 : FVec F S320x3x1 .f32 := Host.absf main_arg1
  let main_cst_0 : FVec F S_ .f32 := constant S_ .f32 0x7F800000#32
  let main_v5 : FVec F S320x3x1 .f32 := broadcastInDim S320x3x1 ![] bcast_S_S320x3x1 main_cst_0
  let main_v6 : IVec S320x3x1 1 := cmpf .olt main_v4 main_v5
  let main_c_1 : IVec S_ 1 := constantI S_ 1 1#1
  let main_v7 : IVec S_ 1 := (fun x v => Host.reduce IntOp.andi x v reducesTo_S320x3x1_S_d0_1_2 h_S_) main_v6 main_c_1
  let main_v8 : IVec S_ 1 := andi main_v3 main_v7
  let main_v9 : FVec F S320x3x3 .f32 := Host.absf main_arg2
  let main_cst_2 : FVec F S_ .f32 := constant S_ .f32 0x7F800000#32
  let main_v10 : FVec F S320x3x3 .f32 := broadcastInDim S320x3x3 ![] bcast_S_S320x3x3 main_cst_2
  let main_v11 : IVec S320x3x3 1 := cmpf .olt main_v9 main_v10
  let main_c_3 : IVec S_ 1 := constantI S_ 1 1#1
  let main_v12 : IVec S_ 1 := (fun x v => Host.reduce IntOp.andi x v reducesTo_S320x3x3_S_d0_1_2 h_S_) main_v11 main_c_3
  let main_v13 : IVec S_ 1 := andi main_v8 main_v12
  let main_v14 : FVec F S320x3x3 .f32 := Host.absf main_arg3
  let main_cst_4 : FVec F S_ .f32 := constant S_ .f32 0x7F800000#32
  let main_v15 : FVec F S320x3x3 .f32 := broadcastInDim S320x3x3 ![] bcast_S_S320x3x3 main_cst_4
  let main_v16 : IVec S320x3x3 1 := cmpf .olt main_v14 main_v15
  fn_part1 (F := F) main_arg4 main_arg5 main_arg6 main_arg7 main_arg8 main_arg9 main_arg10 main_arg11 main_arg12 main_v13 main_v16
-- ==== Kernel.lean ====
abbrev S16x320x32x32 : Shape := ⟨4, ![16, 320, 32, 32]⟩
abbrev S320x3x1 : Shape := ⟨3, ![320, 3, 1]⟩
abbrev S320x3x3 : Shape := ⟨3, ![320, 3, 3]⟩
abbrev S320x1x3 : Shape := ⟨3, ![320, 1, 3]⟩
abbrev S320x1x1 : Shape := ⟨3, ![320, 1, 1]⟩
abbrev S16x320x1024 : Shape := ⟨3, ![16, 320, 1024]⟩
abbrev S_ : Shape := ⟨0, ![]⟩
abbrev S320x3 : Shape := ⟨2, ![320, 3]⟩
abbrev S320x9 : Shape := ⟨2, ![320, 9]⟩
abbrev S320x1 : Shape := ⟨2, ![320, 1]⟩
abbrev S320x24 : Shape := ⟨2, ![320, 24]⟩
abbrev S320x10 : Shape := ⟨2, ![320, 10]⟩
abbrev S1x320x1024 : Shape := ⟨3, ![1, 320, 1024]⟩
abbrev S320x1024 : Shape := ⟨2, ![320, 1024]⟩

abbrev nBuf : Space → Nat
  | .hbm => 91
  | .vmem => 7
  | .smem => 0
  | _ => 0

abbrev bufTy : (tb : Table) → Fin (tcTables nBuf tb) → BufTy
  | .hbm, ⟨0, _⟩ => ⟨S16x320x32x32, .f32⟩
  | .hbm, ⟨1, _⟩ => ⟨S320x3x1, .f32⟩
  | .hbm, ⟨2, _⟩ => ⟨S320x3x3, .f32⟩
  | .hbm, ⟨3, _⟩ => ⟨S320x3x3, .f32⟩
  | .hbm, ⟨4, _⟩ => ⟨S320x1x3, .f32⟩
  | .hbm, ⟨5, _⟩ => ⟨S320x3x1, .f32⟩
  | .hbm, ⟨6, _⟩ => ⟨S320x3x1, .f32⟩
  | .hbm, ⟨7, _⟩ => ⟨S320x3x1, .f32⟩
  | .hbm, ⟨8, _⟩ => ⟨S320x1x1, .f32⟩
  | .hbm, ⟨9, _⟩ => ⟨S320x3x1, .f32⟩
  | .hbm, ⟨10, _⟩ => ⟨S320x3x1, .f32⟩
  | .hbm, ⟨11, _⟩ => ⟨S320x3x1, .f32⟩
  | .hbm, ⟨12, _⟩ => ⟨S320x1x1, .f32⟩
  | .hbm, ⟨13, _⟩ => ⟨S16x320x1024, .f32⟩
  | .hbm, ⟨14, _⟩ => ⟨S_, .f32⟩
  | .hbm, ⟨15, _⟩ => ⟨S320x3x1, .f32⟩
  | .hbm, ⟨16, _⟩ => ⟨S320x3x1, .f32⟩
  | .hbm, ⟨17, _⟩ => ⟨S320x3x1, .f32⟩
  | .hbm, ⟨18, _⟩ => ⟨S320x3x1, .f32⟩
  | .hbm, ⟨19, _⟩ => ⟨S320x3x1, .i1⟩
  | .hbm, ⟨20, _⟩ => ⟨S320x3x1, .f32⟩
  | .hbm, ⟨21, _⟩ => ⟨S320x3x1, .f32⟩
  | .hbm, ⟨22, _⟩ => ⟨S320x3x1, .f32⟩
  | .hbm, ⟨23, _⟩ => ⟨S320x3x1, .f32⟩
  | .hbm, ⟨24, _⟩ => ⟨S320x3x1, .f32⟩
  | .hbm, ⟨25, _⟩ => ⟨S320x3x1, .f32⟩
  | .hbm, ⟨26, _⟩ => ⟨S320x3x1, .f32⟩
  | .hbm, ⟨27, _⟩ => ⟨S320x3x1, .f32⟩
  | .hbm, ⟨28, _⟩ => ⟨S320x3, .f32⟩
  | .hbm, ⟨29, _⟩ => ⟨S320x3x1, .f32⟩
  | .hbm, ⟨30, _⟩ => ⟨S320x3, .f32⟩
  | .hbm, ⟨31, _⟩ => ⟨S320x3, .f32⟩
  | .hbm, ⟨32, _⟩ => ⟨S_, .f32⟩
  | .hbm, ⟨33, _⟩ => ⟨S320x3x3, .f32⟩
  | .hbm, ⟨34, _⟩ => ⟨S320x3x3, .f32⟩
  | .hbm, ⟨35, _⟩ => ⟨S320x3x3, .f32⟩
  | .hbm, ⟨36, _⟩ => ⟨S320x3x3, .f32⟩
  | .hbm, ⟨37, _⟩ => ⟨S320x3x3, .i1⟩
  | .hbm, ⟨38, _⟩ => ⟨S320x3x3, .f32⟩
  | .hbm, ⟨39, _⟩ => ⟨S320x3x3, .f32⟩
  | .hbm, ⟨40, _⟩ => ⟨S320x3x3, .f32⟩
  | .hbm, ⟨41, _⟩ => ⟨S320x3x3, .f32⟩
  | .hbm, ⟨42, _⟩ => ⟨S320x3x3, .f32⟩
  | .hbm, ⟨43, _⟩ => ⟨S320x3x3, .f32⟩
  | .hbm, ⟨44, _⟩ => ⟨S320x3x3, .f32⟩
  | .hbm, ⟨45, _⟩ => ⟨S320x3x3, .f32⟩
  | .hbm, ⟨46, _⟩ => ⟨S320x9, .f32⟩
  | .hbm, ⟨47, _⟩ => ⟨S320x3x1, .f32⟩
  | .hbm, ⟨48, _⟩ => ⟨S320x3, .f32⟩
  | .hbm, ⟨49, _⟩ => ⟨S320x3, .f32⟩
  | .hbm, ⟨50, _⟩ => ⟨S_, .f32⟩
  | .hbm, ⟨51, _⟩ => ⟨S320x3x3, .f32⟩
  | .hbm, ⟨52, _⟩ => ⟨S320x3x3, .f32⟩
  | .hbm, ⟨53, _⟩ => ⟨S320x3x3, .f32⟩
  | .hbm, ⟨54, _⟩ => ⟨S320x3x3, .f32⟩
  | .hbm, ⟨55, _⟩ => ⟨S320x3x3, .i1⟩
  | .hbm, ⟨56, _⟩ => ⟨S320x3x3, .f32⟩
  | .hbm, ⟨57, _⟩ => ⟨S320x3x3, .f32⟩
  | .hbm, ⟨58, _⟩ => ⟨S320x3x3, .f32⟩
  | .hbm, ⟨59, _⟩ => ⟨S320x3x3, .f32⟩
  | .hbm, ⟨60, _⟩ => ⟨S320x3x3, .f32⟩
  | .hbm, ⟨61, _⟩ => ⟨S320x3x3, .f32⟩
  | .hbm, ⟨62, _⟩ => ⟨S320x3x3, .f32⟩
  | .hbm, ⟨63, _⟩ => ⟨S320x3x3, .f32⟩
  | .hbm, ⟨64, _⟩ => ⟨S320x9, .f32⟩
  | .hbm, ⟨65, _⟩ => ⟨S320x3x1, .f32⟩
  | .hbm, ⟨66, _⟩ => ⟨S320x3, .f32⟩
  | .hbm, ⟨67, _⟩ => ⟨S320x3, .f32⟩
  | .hbm, ⟨68, _⟩ => ⟨S_, .f32⟩
  | .hbm, ⟨69, _⟩ => ⟨S320x1x3, .f32⟩
  | .hbm, ⟨70, _⟩ => ⟨S320x1x3, .f32⟩
  | .hbm, ⟨71, _⟩ => ⟨S320x1x3, .f32⟩
  | .hbm, ⟨72, _⟩ => ⟨S320x1x3, .f32⟩
  | .hbm, ⟨73, _⟩ => ⟨S320x1x3, .i1⟩
  | .hbm, ⟨74, _⟩ => ⟨S320x1x3, .f32⟩
  | .hbm, ⟨75, _⟩ => ⟨S320x1x3, .f32⟩
  | .hbm, ⟨76, _⟩ => ⟨S320x1x3, .f32⟩
  | .hbm, ⟨77, _⟩ => ⟨S320x1x3, .f32⟩
  | .hbm, ⟨78, _⟩ => ⟨S320x1x3, .f32⟩
  | .hbm, ⟨79, _⟩ => ⟨S320x1x3, .f32⟩
  | .hbm, ⟨80, _⟩ => ⟨S320x1x3, .f32⟩
  | .hbm, ⟨81, _⟩ => ⟨S320x1x3, .f32⟩
  | .hbm, ⟨82, _⟩ => ⟨S320x3, .f32⟩
  | .hbm, ⟨83, _⟩ => ⟨S320x1x1, .f32⟩
  | .hbm, ⟨84, _⟩ => ⟨S320x1, .f32⟩
  | .hbm, ⟨85, _⟩ => ⟨S320x1, .f32⟩
  | .hbm, ⟨86, _⟩ => ⟨S320x24, .f32⟩
  | .hbm, ⟨87, _⟩ => ⟨S320x10, .f32⟩
  | .hbm, ⟨88, _⟩ => ⟨S320x10, .f32⟩
  | .hbm, ⟨89, _⟩ => ⟨S16x320x1024, .f32⟩
  | .hbm, ⟨90, _⟩ => ⟨S16x320x32x32, .f32⟩
  | .local _ .vmem, ⟨0, _⟩ => ⟨S1x320x1024, .f32⟩
  | .local _ .vmem, ⟨1, _⟩ => ⟨S1x320x1024, .f32⟩
  | .local _ .vmem, ⟨2, _⟩ => ⟨S320x24, .f32⟩
  | .local _ .vmem, ⟨3, _⟩ => ⟨S320x10, .f32⟩
  | .local _ .vmem, ⟨4, _⟩ => ⟨S320x10, .f32⟩
  | .local _ .vmem, ⟨5, _⟩ => ⟨S1x320x1024, .f32⟩
  | .local _ .vmem, ⟨6, _⟩ => ⟨S1x320x1024, .f32⟩
  | _, _ => ⟨S16x320x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_call1_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_call2_cst : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_call3_cst : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [BitOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S320x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S320x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S320x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x320x32x32_S16x320x1024 : S16x320x32x32.ShapeCasts S16x320x1024
  bcast_S_S320x3x1 : S_.BroadcastsInDim S320x3x1 (![] : Fin 0 → Fin S320x3x1.rank)
  shapeCasts_S320x3x1_S320x3 : S320x3x1.ShapeCasts S320x3
  bcast_S_S320x3x3 : S_.BroadcastsInDim S320x3x3 (![] : Fin 0 → Fin S320x3x3.rank)
  shapeCasts_S320x3x3_S320x9 : S320x3x3.ShapeCasts S320x9
  bcast_S_S320x1x3 : S_.BroadcastsInDim S320x1x3 (![] : Fin 0 → Fin S320x1x3.rank)
  shapeCasts_S320x1x3_S320x3 : S320x1x3.ShapeCasts S320x3
  shapeCasts_S320x1x1_S320x1 : S320x1x1.ShapeCasts S320x1
  concatenates_S320x3_S320x9_S320x9_S320x3_S320x24_d1 : Shape.Concatenates [S320x3, S320x9, S320x9, S320x3] S320x24 1
  concatenates_S320x3_S320x3_S320x3_S320x1_S320x10_d1 : Shape.Concatenates [S320x3, S320x3, S320x3, S320x1] S320x10 1
  inb_S1x320x1024_S1x320x1024_0_0_0 : ∀ a, (![0, 0, 0] : Fin 3 → Nat) a + S1x320x1024.size a ≤ S1x320x1024.size a
  h_S1x320x1024 : 0 < S1x320x1024.numel
  shapeCasts_S1x320x1024_S320x1024 : S1x320x1024.ShapeCasts S320x1024
  inb_S320x24_S320x24_0_0 : ∀ a, (![0, 0] : Fin 2 → Nat) a + S320x24.size a ≤ S320x24.size a
  h_S320x24 : 0 < S320x24.numel
  shapeCasts_S320x24_S320x24 : S320x24.ShapeCasts S320x24
  inb_S320x10_S320x10_0_0 : ∀ a, (![0, 0] : Fin 2 → Nat) a + S320x10.size a ≤ S320x10.size a
  h_S320x10 : 0 < S320x10.numel
  shapeCasts_S320x10_S320x10 : S320x10.ShapeCasts S320x10
  slices_S320x24_o0_0_S320x1 : S320x24.Slices ![0, 0] S320x1
  broadcasts_S320x1_S320x1024 : S320x1.Broadcasts S320x1024
  slices_S320x10_o0_0_S320x1 : S320x10.Slices ![0, 0] S320x1
  slices_S320x24_o0_1_S320x1 : S320x24.Slices ![0, 1] S320x1
  slices_S320x10_o0_1_S320x1 : S320x10.Slices ![0, 1] S320x1
  slices_S320x24_o0_2_S320x1 : S320x24.Slices ![0, 2] S320x1
  slices_S320x10_o0_2_S320x1 : S320x10.Slices ![0, 2] S320x1
  slices_S320x24_o0_3_S320x1 : S320x24.Slices ![0, 3] S320x1
  slices_S320x24_o0_4_S320x1 : S320x24.Slices ![0, 4] S320x1
  slices_S320x24_o0_5_S320x1 : S320x24.Slices ![0, 5] S320x1
  slices_S320x10_o0_3_S320x1 : S320x10.Slices ![0, 3] S320x1
  slices_S320x24_o0_6_S320x1 : S320x24.Slices ![0, 6] S320x1
  slices_S320x24_o0_7_S320x1 : S320x24.Slices ![0, 7] S320x1
  slices_S320x24_o0_8_S320x1 : S320x24.Slices ![0, 8] S320x1
  slices_S320x10_o0_4_S320x1 : S320x10.Slices ![0, 4] S320x1
  slices_S320x24_o0_9_S320x1 : S320x24.Slices ![0, 9] S320x1
  slices_S320x24_o0_10_S320x1 : S320x24.Slices ![0, 10] S320x1
  slices_S320x24_o0_11_S320x1 : S320x24.Slices ![0, 11] S320x1
  slices_S320x10_o0_5_S320x1 : S320x10.Slices ![0, 5] S320x1
  slices_S320x24_o0_12_S320x1 : S320x24.Slices ![0, 12] S320x1
  slices_S320x24_o0_13_S320x1 : S320x24.Slices ![0, 13] S320x1
  slices_S320x24_o0_14_S320x1 : S320x24.Slices ![0, 14] S320x1
  slices_S320x10_o0_6_S320x1 : S320x10.Slices ![0, 6] S320x1
  slices_S320x24_o0_15_S320x1 : S320x24.Slices ![0, 15] S320x1
  slices_S320x24_o0_16_S320x1 : S320x24.Slices ![0, 16] S320x1
  slices_S320x24_o0_17_S320x1 : S320x24.Slices ![0, 17] S320x1
  slices_S320x10_o0_7_S320x1 : S320x10.Slices ![0, 7] S320x1
  slices_S320x24_o0_18_S320x1 : S320x24.Slices ![0, 18] S320x1
  slices_S320x24_o0_19_S320x1 : S320x24.Slices ![0, 19] S320x1
  slices_S320x24_o0_20_S320x1 : S320x24.Slices ![0, 20] S320x1
  slices_S320x10_o0_8_S320x1 : S320x10.Slices ![0, 8] S320x1
  slices_S320x24_o0_21_S320x1 : S320x24.Slices ![0, 21] S320x1
  slices_S320x24_o0_22_S320x1 : S320x24.Slices ![0, 22] S320x1
  slices_S320x24_o0_23_S320x1 : S320x24.Slices ![0, 23] S320x1
  slices_S320x10_o0_9_S320x1 : S320x10.Slices ![0, 9] S320x1
  shapeCasts_S320x1024_S1x320x1024 : S320x1024.ShapeCasts S1x320x1024
  shapeCasts_S16x320x1024_S16x320x32x32 : S16x320x1024.ShapeCasts S16x320x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x320x1024.size a ≤ S16x320x1024.size a
  hwx0_0 : ∀ i : grid0.Coords, EltTy.bits .f32 = 32 ∨ (Rect.block (s := S16x320x1024) S1x320x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S320x24.size a ≤ S320x24.size a
  hwx0_1 : ∀ i : grid0.Coords, EltTy.bits .f32 = 32 ∨ (Rect.block (s := S320x24) S320x24.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S320x10.size a ≤ S320x10.size a
  hwx0_2 : ∀ i : grid0.Coords, EltTy.bits .f32 = 32 ∨ (Rect.block (s := S320x10) S320x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S320x10.size a ≤ S320x10.size a
  hwx0_3 : ∀ i : grid0.Coords, EltTy.bits .f32 = 32 ∨ (Rect.block (s := S320x10) S320x10.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x320x1024.size a ≤ S16x320x1024.size a
  hwx0_4 : ∀ i : grid0.Coords, EltTy.bits .f32 = 32 ∨ (Rect.block (s := S16x320x1024) S1x320x1024.size (cc0_transform_4 i) (hinb0_4 i)).WholeWords (EltTy.packing .f32)

variable [Facts₀]

abbrev win0_0 : Pipeline.Window sig grid0 :=
  Pipeline.Window.ofSpec (Memref.whole main_v0) S1x320x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S320x24.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S320x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S320x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x320x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x320x32x32 : Shape := ⟨4, ![16, 320, 32, 32]⟩
abbrev S320x3x1 : Shape := ⟨3, ![320, 3, 1]⟩
abbrev S320x3x3 : Shape := ⟨3, ![320, 3, 3]⟩
abbrev S320x1x3 : Shape := ⟨3, ![320, 1, 3]⟩
abbrev S320x1x1 : Shape := ⟨3, ![320, 1, 1]⟩
abbrev S320x16x32x32 : Shape := ⟨4, ![320, 16, 32, 32]⟩
abbrev S320x1x16384 : Shape := ⟨3, ![320, 1, 16384]⟩
abbrev S_ : Shape := ⟨0, ![]⟩
abbrev S320x3x16384 : Shape := ⟨3, ![320, 3, 16384]⟩

abbrev nBuf : Space → Nat
  | .hbm => 225
  | .vmem => 0
  | .smem => 0
  | _ => 0

abbrev hbmTy0_0 (i : Nat) : BufTy := match i % 128 with
  | 0 => ⟨S16x320x32x32, .f32⟩
  | 1 => ⟨S320x3x1, .f32⟩
  | 2 => ⟨S320x3x3, .f32⟩
  | 3 => ⟨S320x3x3, .f32⟩
  | 4 => ⟨S320x1x3, .f32⟩
  | 5 => ⟨S320x3x1, .f32⟩
  | 6 => ⟨S320x3x1, .f32⟩
  | 7 => ⟨S320x3x1, .f32⟩
  | 8 => ⟨S320x1x1, .f32⟩
  | 9 => ⟨S320x3x1, .f32⟩
  | 10 => ⟨S320x3x1, .f32⟩
  | 11 => ⟨S320x3x1, .f32⟩
  | 12 => ⟨S320x1x1, .f32⟩
  | 13 => ⟨S320x16x32x32, .f32⟩
  | 14 => ⟨S320x1x16384, .f32⟩
  | 15 => ⟨S_, .f32⟩
  | 16 => ⟨S320x1x16384, .f32⟩
  | 17 => ⟨S320x1x16384, .f32⟩
  | 18 => ⟨S_, .f32⟩
  | 19 => ⟨S320x3x1, .f32⟩
  | 20 => ⟨S320x3x1, .f32⟩
  | 21 => ⟨S320x3x1, .f32⟩
  | 22 => ⟨S320x3x1, .f32⟩
  | 23 => ⟨S320x3x1, .i1⟩
  | 24 => ⟨S320x3x1, .f32⟩
  | 25 => ⟨S320x3x1, .f32⟩
  | 26 => ⟨S320x3x1, .f32⟩
  | 27 => ⟨S320x3x1, .f32⟩
  | 28 => ⟨S320x3x1, .f32⟩
  | 29 => ⟨S320x3x1, .f32⟩
  | 30 => ⟨S320x3x1, .f32⟩
  | 31 => ⟨S320x3x1, .f32⟩
  | 32 => ⟨S320x3x16384, .f32⟩
  | 33 => ⟨S320x3x16384, .f32⟩
  | 34 => ⟨S320x3x16384, .f32⟩
  | 35 => ⟨S320x3x1, .f32⟩
  | 36 => ⟨S320x3x16384, .f32⟩
  | 37 => ⟨S320x3x16384, .f32⟩
  | 38 => ⟨S320x3x16384, .f32⟩
  | 39 => ⟨S320x3x16384, .f32⟩
  | 40 => ⟨S_, .f32⟩
  | 41 => ⟨S320x3x3, .f32⟩
  | 42 => ⟨S320x3x3, .f32⟩
  | 43 => ⟨S320x3x3, .f32⟩
  | 44 => ⟨S320x3x3, .f32⟩
  | 45 => ⟨S320x3x3, .i1⟩
  | 46 => ⟨S320x3x3, .f32⟩
  | 47 => ⟨S320x3x3, .f32⟩
  | 48 => ⟨S320x3x3, .f32⟩
  | 49 => ⟨S320x3x3, .f32⟩
  | 50 => ⟨S320x3x3, .f32⟩
  | 51 => ⟨S320x3x3, .f32⟩
  | 52 => ⟨S320x3x3, .f32⟩
  | 53 => ⟨S320x3x3, .f32⟩
  | 54 => ⟨S320x3x16384, .f32⟩
  | 55 => ⟨S320x3x16384, .f32⟩
  | 56 => ⟨S320x3x16384, .f32⟩
  | 57 => ⟨S320x3x1, .f32⟩
  | 58 => ⟨S320x3x16384, .f32⟩
  | 59 => ⟨S320x3x16384, .f32⟩
  | 60 => ⟨S320x3x16384, .f32⟩
  | 61 => ⟨S320x3x16384, .f32⟩
  | 62 => ⟨S_, .f32⟩
  | 63 => ⟨S320x3x3, .f32⟩
  | 64 => ⟨S320x3x3, .f32⟩
  | 65 => ⟨S320x3x3, .f32⟩
  | 66 => ⟨S320x3x3, .f32⟩
  | 67 => ⟨S320x3x3, .i1⟩
  | 68 => ⟨S320x3x3, .f32⟩
  | 69 => ⟨S320x3x3, .f32⟩
  | 70 => ⟨S320x3x3, .f32⟩
  | 71 => ⟨S320x3x3, .f32⟩
  | 72 => ⟨S320x3x3, .f32⟩
  | 73 => ⟨S320x3x3, .f32⟩
  | 74 => ⟨S320x3x3, .f32⟩
  | 75 => ⟨S320x3x3, .f32⟩
  | 76 => ⟨S320x3x16384, .f32⟩
  | 77 => ⟨S320x3x16384, .f32⟩
  | 78 => ⟨S320x3x16384, .f32⟩
  | 79 => ⟨S320x3x1, .f32⟩
  | 80 => ⟨S320x3x16384, .f32⟩
  | 81 => ⟨S320x3x16384, .f32⟩
  | 82 => ⟨S320x3x16384, .f32⟩
  | 83 => ⟨S320x3x16384, .f32⟩
  | 84 => ⟨S_, .f32⟩
  | 85 => ⟨S320x1x3, .f32⟩
  | 86 => ⟨S320x1x3, .f32⟩
  | 87 => ⟨S320x1x3, .f32⟩
  | 88 => ⟨S320x1x3, .f32⟩
  | 89 => ⟨S320x1x3, .i1⟩
  | 90 => ⟨S320x1x3, .f32⟩
  | 91 => ⟨S320x1x3, .f32⟩
  | 92 => ⟨S320x1x3, .f32⟩
  | 93 => ⟨S320x1x3, .f32⟩
  | 94 => ⟨S320x1x3, .f32⟩
  | 95 => ⟨S320x1x3, .f32⟩
  | 96 => ⟨S320x1x3, .f32⟩
  | 97 => ⟨S320x1x3, .f32⟩
  | 98 => ⟨S320x1x16384, .f32⟩
  | 99 => ⟨S320x1x16384, .f32⟩
  | 100 => ⟨S320x1x16384, .f32⟩
  | 101 => ⟨S320x1x1, .f32⟩
  | 102 => ⟨S320x1x16384, .f32⟩
  | 103 => ⟨S320x1x16384, .f32⟩
  | 104 => ⟨S320x1x16384, .f32⟩
  | 105 => ⟨S320x1x16384, .f32⟩
  | 106 => ⟨S_, .f32⟩
  | 107 => ⟨S320x1x16384, .f32⟩
  | 108 => ⟨S320x1x16384, .f32⟩
  | 109 => ⟨S_, .f32⟩
  | 110 => ⟨S320x3x1, .f32⟩
  | 111 => ⟨S320x3x1, .f32⟩
  | 112 => ⟨S320x3x1, .f32⟩
  | 113 => ⟨S320x3x1, .f32⟩
  | 114 => ⟨S320x3x1, .i1⟩
  | 115 => ⟨S320x3x1, .f32⟩
  | 116 => ⟨S320x3x1, .f32⟩
  | 117 => ⟨S320x3x1, .f32⟩
  | 118 => ⟨S320x3x1, .f32⟩
  | 119 => ⟨S320x3x1, .f32⟩
  | 120 => ⟨S320x3x1, .f32⟩
  | 121 => ⟨S320x3x1, .f32⟩
  | 122 => ⟨S320x3x1, .f32⟩
  | 123 => ⟨S320x3x16384, .f32⟩
  | 124 => ⟨S320x3x16384, .f32⟩
  | 125 => ⟨S320x3x16384, .f32⟩
  | 126 => ⟨S320x3x1, .f32⟩
  | 127 => ⟨S320x3x16384, .f32⟩
  | _ => ⟨S16x320x32x32, .f32⟩

abbrev hbmTy0_1 (i : Nat) : BufTy := match i % 128 with
  | 0 => ⟨S320x3x16384, .f32⟩
  | 1 => ⟨S320x3x16384, .f32⟩
  | 2 => ⟨S320x3x16384, .f32⟩
  | 3 => ⟨S_, .f32⟩
  | 4 => ⟨S320x3x3, .f32⟩
  | 5 => ⟨S320x3x3, .f32⟩
  | 6 => ⟨S320x3x3, .f32⟩
  | 7 => ⟨S320x3x3, .f32⟩
  | 8 => ⟨S320x3x3, .i1⟩
  | 9 => ⟨S320x3x3, .f32⟩
  | 10 => ⟨S320x3x3, .f32⟩
  | 11 => ⟨S320x3x3, .f32⟩
  | 12 => ⟨S320x3x3, .f32⟩
  | 13 => ⟨S320x3x3, .f32⟩
  | 14 => ⟨S320x3x3, .f32⟩
  | 15 => ⟨S320x3x3, .f32⟩
  | 16 => ⟨S320x3x3, .f32⟩
  | 17 => ⟨S320x3x16384, .f32⟩
  | 18 => ⟨S320x3x16384, .f32⟩
  | 19 => ⟨S320x3x16384, .f32⟩
  | 20 => ⟨S320x3x1, .f32⟩
  | 21 => ⟨S320x3x16384, .f32⟩
  | 22 => ⟨S320x3x16384, .f32⟩
  | 23 => ⟨S320x3x16384, .f32⟩
  | 24 => ⟨S320x3x16384, .f32⟩
  | 25 => ⟨S_, .f32⟩
  | 26 => ⟨S320x3x3, .f32⟩
  | 27 => ⟨S320x3x3, .f32⟩
  | 28 => ⟨S320x3x3, .f32⟩
  | 29 => ⟨S320x3x3, .f32⟩
  | 30 => ⟨S320x3x3, .i1⟩
  | 31 => ⟨S320x3x3, .f32⟩
  | 32 => ⟨S320x3x3, .f32⟩
  | 33 => ⟨S320x3x3, .f32⟩
  | 34 => ⟨S320x3x3, .f32⟩
  | 35 => ⟨S320x3x3, .f32⟩
  | 36 => ⟨S320x3x3, .f32⟩
  | 37 => ⟨S320x3x3, .f32⟩
  | 38 => ⟨S320x3x3, .f32⟩
  | 39 => ⟨S320x3x16384, .f32⟩
  | 40 => ⟨S320x3x16384, .f32⟩
  | 41 => ⟨S320x3x16384, .f32⟩
  | 42 => ⟨S320x3x1, .f32⟩
  | 43 => ⟨S320x3x16384, .f32⟩
  | 44 => ⟨S320x3x16384, .f32⟩
  | 45 => ⟨S320x3x16384, .f32⟩
  | 46 => ⟨S320x3x16384, .f32⟩
  | 47 => ⟨S_, .f32⟩
  | 48 => ⟨S320x1x3, .f32⟩
  | 49 => ⟨S320x1x3, .f32⟩
  | 50 => ⟨S320x1x3, .f32⟩
  | 51 => ⟨S320x1x3, .f32⟩
  | 52 => ⟨S320x1x3, .i1⟩
  | 53 => ⟨S320x1x3, .f32⟩
  | 54 => ⟨S320x1x3, .f32⟩
  | 55 => ⟨S320x1x3, .f32⟩
  | 56 => ⟨S320x1x3, .f32⟩
  | 57 => ⟨S320x1x3, .f32⟩
  | 58 => ⟨S320x1x3, .f32⟩
  | 59 => ⟨S320x1x3, .f32⟩
  | 60 => ⟨S320x1x3, .f32⟩
  | 61 => ⟨S320x1x16384, .f32⟩
  | 62 => ⟨S320x1x16384, .f32⟩
  | 63 => ⟨S320x1x16384, .f32⟩
  | 64 => ⟨S320x1x1, .f32⟩
  | 65 => ⟨S320x1x16384, .f32⟩
  | 66 => ⟨S320x1x16384, .f32⟩
  | 67 => ⟨S320x1x16384, .f32⟩
  | 68 => ⟨S320x1x16384, .f32⟩
  | 69 => ⟨S320x1x16384, .f32⟩
  | 70 => ⟨S320x1x16384, .f32⟩
  | 71 => ⟨S320x1x16384, .f32⟩
  | 72 => ⟨S320x1x16384, .f32⟩
  | 73 => ⟨S320x1x16384, .f32⟩
  | 74 => ⟨S320x1x16384, .f32⟩
  | 75 => ⟨S_, .f32⟩
  | 76 => ⟨S320x1x16384, .f32⟩
  | 77 => ⟨S320x1x16384, .f32⟩
  | 78 => ⟨S_, .f32⟩
  | 79 => ⟨S320x1x16384, .f32⟩
  | 80 => ⟨S320x1x16384, .f32⟩
  | 81 => ⟨S320x1x16384, .f32⟩
  | 82 => ⟨S320x1x16384, .f32⟩
  | 83 => ⟨S320x1x16384, .f32⟩
  | 84 => ⟨S_, .f32⟩
  | 85 => ⟨S320x1x16384, .f32⟩
  | 86 => ⟨S320x1x16384, .f32⟩
  | 87 => ⟨S_, .f32⟩
  | 88 => ⟨S320x1x16384, .f32⟩
  | 89 => ⟨S320x1x16384, .f32⟩
  | 90 => ⟨S320x1x16384, .f32⟩
  | 91 => ⟨S320x1x16384, .f32⟩
  | 92 => ⟨S320x16x32x32, .f32⟩
  | 93 => ⟨S16x320x32x32, .f32⟩
  | 94 => ⟨S_, .f32⟩
  | 95 => ⟨S16x320x32x32, .f32⟩
  | 96 => ⟨S16x320x32x32, .f32⟩
  | _ => ⟨S16x320x32x32, .f32⟩

abbrev hbmTy (i : Nat) : BufTy := match i / 128 with
  | 0 => hbmTy0_0 i
  | 1 => hbmTy0_1 i
  | _ => ⟨S16x320x32x32, .f32⟩

abbrev bufTy : (tb : Table) → Fin (tcTables nBuf tb) → BufTy
  | .hbm, ⟨i, _⟩ => hbmTy i
  | _, _ => ⟨S16x320x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_call1_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_call2_cst : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_call3_cst : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_v6 : Ref sig .tc := ⟨.hbm, 91, rfl⟩
abbrev main_call3_v7 : Ref sig .tc := ⟨.hbm, 92, rfl⟩
abbrev main_call3_v8 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_cst_0 : Ref sig .tc := ⟨.hbm, 106, rfl⟩
abbrev main_v40 : Ref sig .tc := ⟨.hbm, 107, rfl⟩
abbrev main_v41 : Ref sig .tc := ⟨.hbm, 108, rfl⟩
abbrev main_call4_cst : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_v5 : Ref sig .tc := ⟨.hbm, 115, rfl⟩
abbrev main_call4_v6 : Ref sig .tc := ⟨.hbm, 116, rfl⟩
abbrev main_call4_v7 : Ref sig .tc := ⟨.hbm, 117, rfl⟩
abbrev main_call4_v8 : Ref sig .tc := ⟨.hbm, 118, rfl⟩
abbrev main_call4_v9 : Ref sig .tc := ⟨.hbm, 119, rfl⟩
abbrev main_call4_v10 : Ref sig .tc := ⟨.hbm, 120, rfl⟩
abbrev main_call4_v11 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_call5_cst : Ref sig .tc := ⟨.hbm, 131, rfl⟩
abbrev main_call5_v0 : Ref sig .tc := ⟨.hbm, 132, rfl⟩
abbrev main_call5_v1 : Ref sig .tc := ⟨.hbm, 133, rfl⟩
abbrev main_call5_v2 : Ref sig .tc := ⟨.hbm, 134, rfl⟩
abbrev main_call5_v3 : Ref sig .tc := ⟨.hbm, 135, rfl⟩
abbrev main_call5_v4 : Ref sig .tc := ⟨.hbm, 136, rfl⟩
abbrev main_call5_v5 : Ref sig .tc := ⟨.hbm, 137, rfl⟩
abbrev main_call5_v6 : Ref sig .tc := ⟨.hbm, 138, rfl⟩
abbrev main_call5_v7 : Ref sig .tc := ⟨.hbm, 139, rfl⟩
abbrev main_call5_v8 : Ref sig .tc := ⟨.hbm, 140, rfl⟩
abbrev main_call5_v9 : Ref sig .tc := ⟨.hbm, 141, rfl⟩
abbrev main_call5_v10 : Ref sig .tc := ⟨.hbm, 142, rfl⟩
abbrev main_call5_v11 : Ref sig .tc := ⟨.hbm, 143, rfl⟩
abbrev main_v51 : Ref sig .tc := ⟨.hbm, 144, rfl⟩
abbrev main_v52 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩
abbrev main_v56 : Ref sig .tc := ⟨.hbm, 149, rfl⟩
abbrev main_v57 : Ref sig .tc := ⟨.hbm, 150, rfl⟩
abbrev main_v58 : Ref sig .tc := ⟨.hbm, 151, rfl⟩
abbrev main_v59 : Ref sig .tc := ⟨.hbm, 152, rfl⟩
abbrev main_call6_cst : Ref sig .tc := ⟨.hbm, 153, rfl⟩
abbrev main_call6_v0 : Ref sig .tc := ⟨.hbm, 154, rfl⟩
abbrev main_call6_v1 : Ref sig .tc := ⟨.hbm, 155, rfl⟩
abbrev main_call6_v2 : Ref sig .tc := ⟨.hbm, 156, rfl⟩
abbrev main_call6_v3 : Ref sig .tc := ⟨.hbm, 157, rfl⟩
abbrev main_call6_v4 : Ref sig .tc := ⟨.hbm, 158, rfl⟩
abbrev main_call6_v5 : Ref sig .tc := ⟨.hbm, 159, rfl⟩
abbrev main_call6_v6 : Ref sig .tc := ⟨.hbm, 160, rfl⟩
abbrev main_call6_v7 : Ref sig .tc := ⟨.hbm, 161, rfl⟩
abbrev main_call6_v8 : Ref sig .tc := ⟨.hbm, 162, rfl⟩
abbrev main_call6_v9 : Ref sig .tc := ⟨.hbm, 163, rfl⟩
abbrev main_call6_v10 : Ref sig .tc := ⟨.hbm, 164, rfl⟩
abbrev main_call6_v11 : Ref sig .tc := ⟨.hbm, 165, rfl⟩
abbrev main_v60 : Ref sig .tc := ⟨.hbm, 166, rfl⟩
abbrev main_v61 : Ref sig .tc := ⟨.hbm, 167, rfl⟩
abbrev main_v62 : Ref sig .tc := ⟨.hbm, 168, rfl⟩
abbrev main_v63 : Ref sig .tc := ⟨.hbm, 169, rfl⟩
abbrev main_v64 : Ref sig .tc := ⟨.hbm, 170, rfl⟩
abbrev main_v65 : Ref sig .tc := ⟨.hbm, 171, rfl⟩
abbrev main_v66 : Ref sig .tc := ⟨.hbm, 172, rfl⟩
abbrev main_v67 : Ref sig .tc := ⟨.hbm, 173, rfl⟩
abbrev main_v68 : Ref sig .tc := ⟨.hbm, 174, rfl⟩
abbrev main_call7_cst : Ref sig .tc := ⟨.hbm, 175, rfl⟩
abbrev main_call7_v0 : Ref sig .tc := ⟨.hbm, 176, rfl⟩
abbrev main_call7_v1 : Ref sig .tc := ⟨.hbm, 177, rfl⟩
abbrev main_call7_v2 : Ref sig .tc := ⟨.hbm, 178, rfl⟩
abbrev main_call7_v3 : Ref sig .tc := ⟨.hbm, 179, rfl⟩
abbrev main_call7_v4 : Ref sig .tc := ⟨.hbm, 180, rfl⟩
abbrev main_call7_v5 : Ref sig .tc := ⟨.hbm, 181, rfl⟩
abbrev main_call7_v6 : Ref sig .tc := ⟨.hbm, 182, rfl⟩
abbrev main_call7_v7 : Ref sig .tc := ⟨.hbm, 183, rfl⟩
abbrev main_call7_v8 : Ref sig .tc := ⟨.hbm, 184, rfl⟩
abbrev main_call7_v9 : Ref sig .tc := ⟨.hbm, 185, rfl⟩
abbrev main_call7_v10 : Ref sig .tc := ⟨.hbm, 186, rfl⟩
abbrev main_call7_v11 : Ref sig .tc := ⟨.hbm, 187, rfl⟩
abbrev main_v69 : Ref sig .tc := ⟨.hbm, 188, rfl⟩
abbrev main_v70 : Ref sig .tc := ⟨.hbm, 189, rfl⟩
abbrev main_v71 : Ref sig .tc := ⟨.hbm, 190, rfl⟩
abbrev main_v72 : Ref sig .tc := ⟨.hbm, 191, rfl⟩
abbrev main_v73 : Ref sig .tc := ⟨.hbm, 192, rfl⟩
abbrev main_v74 : Ref sig .tc := ⟨.hbm, 193, rfl⟩
abbrev main_v75 : Ref sig .tc := ⟨.hbm, 194, rfl⟩
abbrev main_v76 : Ref sig .tc := ⟨.hbm, 195, rfl⟩
abbrev main_v77 : Ref sig .tc := ⟨.hbm, 196, rfl⟩
abbrev main_v78 : Ref sig .tc := ⟨.hbm, 197, rfl⟩
abbrev main_v79 : Ref sig .tc := ⟨.hbm, 198, rfl⟩
abbrev main_v80 : Ref sig .tc := ⟨.hbm, 199, rfl⟩
abbrev main_v81 : Ref sig .tc := ⟨.hbm, 200, rfl⟩
abbrev main_v82 : Ref sig .tc := ⟨.hbm, 201, rfl⟩
abbrev main_v83 : Ref sig .tc := ⟨.hbm, 202, rfl⟩
abbrev main_cst_1 : Ref sig .tc := ⟨.hbm, 203, rfl⟩
abbrev main_v84 : Ref sig .tc := ⟨.hbm, 204, rfl⟩
abbrev main_v85 : Ref sig .tc := ⟨.hbm, 205, rfl⟩
abbrev main_cst_2 : Ref sig .tc := ⟨.hbm, 206, rfl⟩
abbrev main_v86 : Ref sig .tc := ⟨.hbm, 207, rfl⟩
abbrev main_v87 : Ref sig .tc := ⟨.hbm, 208, rfl⟩
abbrev main_v88 : Ref sig .tc := ⟨.hbm, 209, rfl⟩
abbrev main_v89 : Ref sig .tc := ⟨.hbm, 210, rfl⟩
abbrev main_v90 : Ref sig .tc := ⟨.hbm, 211, rfl⟩
abbrev main_cst_3 : Ref sig .tc := ⟨.hbm, 212, rfl⟩
abbrev main_v91 : Ref sig .tc := ⟨.hbm, 213, rfl⟩
abbrev main_v92 : Ref sig .tc := ⟨.hbm, 214, rfl⟩
abbrev main_cst_4 : Ref sig .tc := ⟨.hbm, 215, rfl⟩
abbrev main_v93 : Ref sig .tc := ⟨.hbm, 216, rfl⟩
abbrev main_v94 : Ref sig .tc := ⟨.hbm, 217, rfl⟩
abbrev main_v95 : Ref sig .tc := ⟨.hbm, 218, rfl⟩
abbrev main_v96 : Ref sig .tc := ⟨.hbm, 219, rfl⟩
abbrev main_v97 : Ref sig .tc := ⟨.hbm, 220, rfl⟩
abbrev main_v98 : Ref sig .tc := ⟨.hbm, 221, rfl⟩
abbrev main_cst_5 : Ref sig .tc := ⟨.hbm, 222, rfl⟩
abbrev main_v99 : Ref sig .tc := ⟨.hbm, 223, rfl⟩
abbrev main_v100 : Ref sig .tc := ⟨.hbm, 224, rfl⟩

abbrev nD : Nat := 1
abbrev τ : Topo := Topo.v7x

variable {F : FTy → Type} [FloatOps F]

class Facts₀ : Prop where
  transposes_S16x320x32x32_S320x16x32x32_1_0_2_3 : S16x320x32x32.Transposes [1, 0, 2, 3] S320x16x32x32
  shapeCasts_S320x16x32x32_S320x1x16384 : S320x16x32x32.ShapeCasts S320x1x16384
  bcast_S_S320x1x16384 : S_.BroadcastsInDim S320x1x16384 (![] : Fin 0 → Fin S320x1x16384.rank)
  bcast_S_S320x3x1 : S_.BroadcastsInDim S320x3x1 (![] : Fin 0 → Fin S320x3x1.rank)
  bcast_S320x3x1_S320x3x16384_0_1_2 : S320x3x1.BroadcastsInDim S320x3x16384 (![0, 1, 2] : Fin 3 → Fin S320x3x16384.rank)
  bcast_S_S320x3x3 : S_.BroadcastsInDim S320x3x3 (![] : Fin 0 → Fin S320x3x3.rank)
  bcast_S_S320x1x3 : S_.BroadcastsInDim S320x1x3 (![] : Fin 0 → Fin S320x1x3.rank)
  bcast_S320x1x1_S320x1x16384_0_1_2 : S320x1x1.BroadcastsInDim S320x1x16384 (![0, 1, 2] : Fin 3 → Fin S320x1x16384.rank)
  shapeCasts_S320x1x16384_S320x16x32x32 : S320x1x16384.ShapeCasts S320x16x32x32
  transposes_S320x16x32x32_S16x320x32x32_1_0_2_3 : S320x16x32x32.Transposes [1, 0, 2, 3] S16x320x32x32
  bcast_S_S16x320x32x32 : S_.BroadcastsInDim S16x320x32x32 (![] : Fin 0 → Fin S16x320x32x32.rank)
  dot_S320x3x1_S320x1x16384_S320x3x16384_2_1_1_2_0_0_wf : DotDims.WF S320x3x1 S320x1x16384 S320x3x16384 [2] [1] [1] [2] [0] [0]
  dot_S320x3x3_S320x3x16384_S320x3x16384_2_1_1_2_0_0_wf : DotDims.WF S320x3x3 S320x3x16384 S320x3x16384 [2] [1] [1] [2] [0] [0]
  dot_S320x1x3_S320x3x16384_S320x1x16384_2_1_1_2_0_0_wf : DotDims.WF S320x1x3 S320x3x16384 S320x1x16384 [2] [1] [1] [2] [0] [0]

variable [Facts₀]

def dot_S320x3x1_S320x1x16384_S320x3x16384_2_1_1_2_0_0 : DotDims S320x3x1 S320x1x16384 S320x3x16384 where
  lhsContracting := [2]
  rhsContracting := [1]
  lhsNonContracting := [1]
  rhsNonContracting := [2]
  lhsBatch := [0]
  rhsBatch := [0]
  wf := dot_S320x3x1_S320x1x16384_S320x3x16384_2_1_1_2_0_0_wf
def dot_S320x3x3_S320x3x16384_S320x3x16384_2_1_1_2_0_0 : DotDims S320x3x3 S320x3x16384 S320x3x16384 where
  lhsContracting := [2]
  rhsContracting := [1]
  lhsNonContracting := [1]
  rhsNonContracting := [2]
  lhsBatch := [0]
  rhsBatch := [0]
  wf := dot_S320x3x3_S320x3x16384_S320x3x16384_2_1_1_2_0_0_wf
def dot_S320x1x3_S320x3x16384_S320x1x16384_2_1_1_2_0_0 : DotDims S320x1x3 S320x3x16384 S320x1x16384 where
  lhsContracting := [2]
  rhsContracting := [1]
  lhsNonContracting := [1]
  rhsNonContracting := [2]
  lhsBatch := [0]
  rhsBatch := [0]
  wf := dot_S320x1x3_S320x3x16384_S320x1x16384_2_1_1_2_0_0_wf

class Facts : Prop extends Facts₀ where

variable [Facts]
-- ==== Proof.WordFrame.lean ====
import proofs.«122539_j4982162063467_2_alg».proof.Proof.Gen.Kernel.Launch
import proofs.«122539_j4982162063467_2_alg».proof.Proof.Gen.Kernel.Skeleton
import proofs.«122539_j4982162063467_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
The frame of the kernel program as printed (the word-level instance).

The program is: host lines that flatten the input's spatial axes and pack the per-channel weights
(softplus of the raw weights), gates (tanh of the raw gates) and biases into three narrow tables; one
pipelined region over the sixteen batch entries, whose body maps a (320 × 1024) slab of the input to the
likelihood slab through a four-layer per-channel network evaluated at the input shifted by ±1/2; and one
host line that unflattens the result. The body loads its four input blocks whole, computes, and overwrites
its output block whole, so after a grid point the output's staging buffer is one pure function of the
point's input blocks (`out4`). Only termination, absence of faults and the unchanged arguments are
read off this run.
-/

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The host lines around the region -/

/-- What core `c`'s buffers hold when the region is entered: the launch memory after the host lines that
    build the packed weight, gate and bias tables and flatten the input's two spatial axes. -/
abbrev V0 (c : Dev nD) : Valuation τ sig (Elt F) :=
  StableHlo.after (List.flatten [hostOps0, hostOps0_1, hostOps0_2, hostOps0_3, hostOps0_4, hostOps0_5, hostOps0_6, hostOps0_7, hostOps0_8]) (fun b => m (c, b))
/-- The same, read at one buffer. -/
abbrev V (c : Dev nD) (b : Ref sig .tc) : Buf (Elt F) ((c : Thread nD τ).loc b) := V0 m c (Proc.devRef .tc b)

theorem hostOps0_alloc : (hostOps0 : List (HloOp τ sig (Elt F))).Forall fun op => op.fresh = ∅ := by
  simp only [List.Forall]; repeat' constructor
theorem hostOps0_1_alloc : (hostOps0_1 : List (HloOp τ sig (Elt F))).Forall fun op => op.fresh = ∅ := by
  simp only [List.Forall]; repeat' constructor
theorem hostOps0_2_alloc : (hostOps0_2 : List (HloOp τ sig (Elt F))).Forall fun op => op.fresh = ∅ := by
  simp only [List.Forall]; repeat' constructor
theorem hostOps0_3_alloc : (hostOps0_3 : List (HloOp τ sig (Elt F))).Forall fun op => op.fresh = ∅ := by
  simp only [List.Forall]; repeat' constructor
theorem hostOps0_4_alloc : (hostOps0_4 : List (HloOp τ sig (Elt F))).Forall fun op => op.fresh = ∅ := by
  simp only [List.Forall]; repeat' constructor
theorem hostOps0_5_alloc : (hostOps0_5 : List (HloOp τ sig (Elt F))).Forall fun op => op.fresh = ∅ := by
  simp only [List.Forall]; repeat' constructor
theorem hostOps0_6_alloc : (hostOps0_6 : List (HloOp τ sig (Elt F))).Forall fun op => op.fresh = ∅ := by
  simp only [List.Forall]; repeat' constructor
theorem hostOps0_7_alloc : (hostOps0_7 : List (HloOp τ sig (Elt F))).Forall fun op => op.fresh = ∅ := by
  simp only [List.Forall]; repeat' constructor
theorem hostOps0_8_alloc : (hostOps0_8 : List (HloOp τ sig (Elt F))).Forall fun op => op.fresh = ∅ := by
  simp only [List.Forall]; repeat' constructor
theorem hostOps1_alloc : (hostOps1 : List (HloOp τ sig (Elt F))).Forall fun op => op.fresh = ∅ := by
  simp only [List.Forall]; repeat' constructor

/-- The program is: the host lines before the region, the region, the one host line after it. -/
theorem around (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_alloc, hostOps0_1_alloc, hostOps0_2_alloc, hostOps0_3_alloc, hostOps0_4_alloc, hostOps0_5_alloc, hostOps0_6_alloc, hostOps0_7_alloc, hostOps0_8_alloc⟩) main_chain

/-- The line after the region touches only the pipeline's arrays and buffers that bypass it, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem tail_alloc : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_alloc) op hop
/-- and writes none of the pipeline's five arrays (it writes the final reshaped result only). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0. -/
theorem entry_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 1. -/
theorem entry_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 2. -/
theorem entry_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 3. -/
theorem entry_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 4. -/
theorem entry_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 5. -/
theorem entry_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 6. -/
theorem entry_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 7. -/
theorem entry_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 8. -/
theorem entry_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 9. -/
theorem entry_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 10. -/
theorem entry_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 11. -/
theorem entry_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 12. -/
theorem entry_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 0 ends as launched. -/
theorem exit_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact entry_arg0 m c
/-- Nor does the line after it: argument 1 ends as launched. -/
theorem exit_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact entry_arg1 m c
/-- Nor does the line after it: argument 2 ends as launched. -/
theorem exit_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact entry_arg2 m c
/-- Nor does the line after it: argument 3 ends as launched. -/
theorem exit_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact entry_arg3 m c
/-- Nor does the line after it: argument 4 ends as launched. -/
theorem exit_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact entry_arg4 m c
/-- Nor does the line after it: argument 5 ends as launched. -/
theorem exit_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact entry_arg5 m c
/-- Nor does the line after it: argument 6 ends as launched. -/
theorem exit_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact entry_arg6 m c
/-- Nor does the line after it: argument 7 ends as launched. -/
theorem exit_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact entry_arg7 m c
/-- Nor does the line after it: argument 8 ends as launched. -/
theorem exit_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact entry_arg8 m c
/-- Nor does the line after it: argument 9 ends as launched. -/
theorem exit_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact entry_arg9 m c
/-- Nor does the line after it: argument 10 ends as launched. -/
theorem exit_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact entry_arg10 m c
/-- Nor does the line after it: argument 11 ends as launched. -/
theorem exit_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact entry_arg11 m c
/-- Nor does the line after it: argument 12 ends as launched. -/
theorem exit_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact entry_arg12 m c

/-! ## The blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem held0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem held1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem held2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem held3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run to the library's post for the region-with-tail, the thirteen argument arrays end as launched:
    none of them is an array of the pipeline (those are host results), so each is read by the post's second
    clause and then through the tail and the prefix, neither of which writes it. -/
theorem unchanged_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (exit_arg0 m dats c),
    ((h c).2 main_arg1 (Pipeline.mem_restRefs_of main_arg1 (by decide) (by decide))).trans (exit_arg1 m dats c),
    ((h c).2 main_arg2 (Pipeline.mem_restRefs_of main_arg2 (by decide) (by decide))).trans (exit_arg2 m dats c),
    ((h c).2 main_arg3 (Pipeline.mem_restRefs_of main_arg3 (by decide) (by decide))).trans (exit_arg3 m dats c),
    ((h c).2 main_arg4 (Pipeline.mem_restRefs_of main_arg4 (by decide) (by decide))).trans (exit_arg4 m dats c),
    ((h c).2 main_arg5 (Pipeline.mem_restRefs_of main_arg5 (by decide) (by decide))).trans (exit_arg5 m dats c),
    ((h c).2 main_arg6 (Pipeline.mem_restRefs_of main_arg6 (by decide) (by decide))).trans (exit_arg6 m dats c),
    ((h c).2 main_arg7 (Pipeline.mem_restRefs_of main_arg7 (by decide) (by decide))).trans (exit_arg7 m dats c),
    ((h c).2 main_arg8 (Pipeline.mem_restRefs_of main_arg8 (by decide) (by decide))).trans (exit_arg8 m dats c),
    ((h c).2 main_arg9 (Pipeline.mem_restRefs_of main_arg9 (by decide) (by decide))).trans (exit_arg9 m dats c),
    ((h c).2 main_arg10 (Pipeline.mem_restRefs_of main_arg10 (by decide) (by decide))).trans (exit_arg10 m dats c),
    ((h c).2 main_arg11 (Pipeline.mem_restRefs_of main_arg11 (by decide) (by decide))).trans (exit_arg11 m dats c),
    ((h c).2 main_arg12 (Pipeline.mem_restRefs_of main_arg12 (by decide) (by decide))).trans (exit_arg12 m dats c)⟩) h

/-! ## What one grid point computes -/

abbrev rx : Rect S1x320x1024 := Rect.unit (s := S1x320x1024) ![0, 0, 0] S1x320x1024.size Gen.inb_S1x320x1024_S1x320x1024_0_0_0
abbrev rw24 : Rect S320x24 := Rect.unit (s := S320x24) ![0, 0] S320x24.size Gen.inb_S320x24_S320x24_0_0
abbrev rw10 : Rect S320x10 := Rect.unit (s := S320x10) ![0, 0] S320x10.size Gen.inb_S320x10_S320x10_0_0

/-- The likelihood block one grid point stores, as a function of the four blocks it loads: the input slab
    `x0`, the packed weights `x1`, the packed gates `x2` and the packed biases `x3`. The two branch
    evaluations (at the input shifted up and down by one half) run through the four layers; the generated
    payloads hold the arithmetic of each stretch. -/
def pointValue (x0 : Vec F S1x320x1024 .f32) (x1 : Vec F S320x24 .f32) (x2 : Vec F S320x10 .f32) (x3 : Vec F S320x10 .f32) :
    Vec F S1x320x1024 .f32 :=
  let v0 := View.ld x0 rx
  let v2 := View.ld x1 rw24
  let v4 := View.ld x2 rw10
  let v6 := View.ld x3 rw10
  let v1 := k0_pay2 v0
  let v3 := k0_pay3 v2
  let v5 := k0_pay4 v4
  let v7 := k0_pay5 v6
  let v20 := k0_pay7 v0 v2 v4 v6
  let v31 := k0_pay8 v0 v2 v4 v6
  let v42 := k0_pay9 v0 v2 v4 v6
  let v45 := k0_pay10 v0 v2 v4 v6
  let v48 := k0_pay11 v0 v2 v4 v6
  let v61 := k0_pay12 v3 v5 v7 v42 v45 v48
  let v80 := k0_pay13 v3 v5 v7 v20 v31 v42
  let v99 := k0_pay14 v3 v5 v7 v20 v31 v42
  let v106 := k0_pay15 v3 v5 v7 v20 v31 v42 v45 v48
  let v108 := k0_pay16 v3
  let v167 := k0_pay17 v3 v5 v7 v61 v80 v99 v106 v108
  let v168 := k0_pay18 v7
  let v175 := k0_pay19 v5 v167 v168
  let v188 := k0_pay21 v1 v3 v5 v7
  let v199 := k0_pay22 v1 v3 v5 v7
  let v210 := k0_pay23 v1 v3 v5 v7
  let v225 := k0_pay24 v1 v3 v5 v7
  let v226 := k0_pay25 v1 v3 v5 v7
  let v227 := k0_pay26 v5
  let v229 := k0_pay27 v225 v226 v227
  let v248 := k0_pay28 v3 v5 v7 v188 v199 v210
  let v267 := k0_pay29 v3 v5 v7 v188 v199 v210
  let v286 := k0_pay30 v3 v5 v7 v188 v199 v210 v225 v226 v227
  let v287 := k0_pay31 v3
  let v343 := k0_pay32 v3 v5 v7 v229 v248 v267 v286 v287
  let v344 := k0_pay33 v3 v5 v7 v175 v229 v248 v267 v286 v287
  let v345 := k0_pay34 v3 v5 v7 v175 v229 v248 v267 v286 v287
  let v346 : IVec S320x1024 32 := k0_pay35
  k0_pay1 v175 v343 v344 v345 v346

/-- The output buffer after the body: its one store, which covers the whole block. -/
def out4 (x0 : Vec F S1x320x1024 .f32) (x1 : Vec F S320x24 .f32) (x2 : Vec F S320x10 .f32) (x3 : Vec F S320x10 .f32) :
    Vec F S1x320x1024 .f32 :=
  View.canon [⟨rx, pointValue x0 x1 x2 x3⟩]

theorem covers4 (p0 : Vec F S1x320x1024 .f32) (y : S1x320x1024.Idx) :
    ∃ pc ∈ ([⟨rx, p0⟩] : List (View.Piece (Elt F) S1x320x1024 .f32)), y ∈ pc.1.set :=
  View.cover_of_tiled [⟨rx, p0⟩] S1x320x1024.size (by rfl) y

/-! ## The body's triple -/

set_option maxHeartbeats 4000000 in
/-- The body on whole staging buffers — the four inputs at read contents, the output at anything — returns with
    the inputs as they were and the output holding `out4` of the inputs. -/
theorem body_triple (c : Dev nD) (E : Set ℕ) (i : grid0.Coords)
    (arg1 : Memref sig .tc .vmem S1x320x1024 .f32) (harg1 : arg1.IsWhole) (arg2 : Memref sig .tc .vmem S320x24 .f32) (harg2 : arg2.IsWhole)
    (arg3 : Memref sig .tc .vmem S320x10 .f32) (harg3 : arg3.IsWhole) (arg4 : Memref sig .tc .vmem S320x10 .f32) (harg4 : arg4.IsWhole)
    (arg5 : Memref sig .tc .vmem S1x320x1024 .f32) (harg5 : arg5.IsWhole)
    (x0 : Vec F S1x320x1024 .f32) (x1 : Vec F S320x24 .f32) (x2 : Vec F S320x10 .f32) (x3 : Vec F S320x10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ K ⟨⟩))
      ⊢ wp frame (wpE (defs₀ (F := F)) Variants.none c none) E (cc0__mlp_kernel i arg1 harg1 arg2 harg2 arg3 harg3 arg4 harg4 arg5 harg5) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers4 _)

/-! ## The proof data -/

/-- Per core: the arrays as the region finds them; after the body at point `t` each input buffer still at its
    block and the output buffer at `out4` of the four input blocks; nothing else owned or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := Pipeline.ΦA spec0 c
  q _ := fullShare
  owed _ := 0

theorem arrays_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = out4 (iblk m c 0 t) (iblk m c 1 t) (iblk m c 2 t) (iblk m c 3 t) := by dsimp only [dats]

theorem held0 (c : Dev nD) (t : Fin cfg0.N) (d) : (dats m 0 c).before 0 t d = iblk m c 0 t :=
  held0_of m (dats m 0 c) (arrays_eq m c 0) (after_0 m c) t d
theorem held1 (c : Dev nD) (t : Fin cfg0.N) (d) : (dats m 0 c).before 1 t d = iblk m c 1 t :=
  held1_of m (dats m 0 c) (arrays_eq m c 1) (after_1 m c) t d
theorem held2 (c : Dev nD) (t : Fin cfg0.N) (d) : (dats m 0 c).before 2 t d = iblk m c 2 t :=
  held2_of m (dats m 0 c) (arrays_eq m c 2) (after_2 m c) t d
theorem held3 (c : Dev nD) (t : Fin cfg0.N) (d) : (dats m 0 c).before 3 t d = iblk m c 3 t :=
  held3_of m (dats m 0 c) (arrays_eq m c 3) (after_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the input buffers hold their blocks, so the body's triple applies; the invariant and the
    core's debts pass through untouched. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2, held3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_triple c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- Every weakly fair execution of the program terminates without fault; afterwards each array of the pipeline
    holds what the proof data's write-backs leave in it, and every other unscoped buffer what the line after
    the region computes from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_alloc) (hkeep := tail_keeps)
    (hmain := around m Variants.none) (hA := arrays_eq m) (hΦ := fun _ _ => rfl)

/-- The frame: the program runs to the end, faults nowhere, and leaves its thirteen arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  unchanged_of m ρ (dats m) (run_main m ρ)

end Cert.Kernel.Frm

end
-- ==== Proof.IdealFrame.lean ====
import proofs.«122539_j4982162063467_2_alg».proof.Proof.Gen.KernelIdeal.Launch
import proofs.«122539_j4982162063467_2_alg».proof.Proof.Gen.KernelIdeal.Skeleton
import proofs.«122539_j4982162063467_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
The frame of the idealized kernel program, and its run with every array named.

The program is: host lines that flatten the input's spatial axes and pack the per-channel weights
(softplus of the raw weights), gates (tanh of the raw gates) and biases into three narrow tables; one
pipelined region over the sixteen batch entries, whose body maps a (320 × 1024) slab of the input to the
likelihood slab through a four-layer per-channel network evaluated at the input shifted by ±1/2; and one
host line that unflattens the result. The body loads its four input blocks whole, computes, and overwrites
its output block whole, so after a grid point the output's staging buffer is one pure function of the
point's input blocks (`out4`); the pipeline's write-backs then determine the output array.
-/

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- What core `c`'s buffers hold when the region is entered: the launch memory after the host lines that
    build the packed weight, gate and bias tables and flatten the input's two spatial axes. -/
abbrev V0 (c : Dev nD) : Valuation τ sig (Elt F) :=
  StableHlo.after (List.flatten [hostOps0, hostOps0_1, hostOps0_2, hostOps0_3, hostOps0_4, hostOps0_5, hostOps0_6, hostOps0_7, hostOps0_8]) (fun b => m (c, b))
/-- The same, read at one buffer. -/
abbrev V (c : Dev nD) (b : Ref sig .tc) : Buf (Elt F) ((c : Thread nD τ).loc b) := V0 m c (Proc.devRef .tc b)

theorem hostOps0_alloc : (hostOps0 : List (HloOp τ sig (Elt F))).Forall fun op => op.fresh = ∅ := by
  simp only [List.Forall]; repeat' constructor
theorem hostOps0_1_alloc : (hostOps0_1 : List (HloOp τ sig (Elt F))).Forall fun op => op.fresh = ∅ := by
  simp only [List.Forall]; repeat' constructor
theorem hostOps0_2_alloc : (hostOps0_2 : List (HloOp τ sig (Elt F))).Forall fun op => op.fresh = ∅ := by
  simp only [List.Forall]; repeat' constructor
theorem hostOps0_3_alloc : (hostOps0_3 : List (HloOp τ sig (Elt F))).Forall fun op => op.fresh = ∅ := by
  simp only [List.Forall]; repeat' constructor
theorem hostOps0_4_alloc : (hostOps0_4 : List (HloOp τ sig (Elt F))).Forall fun op => op.fresh = ∅ := by
  simp only [List.Forall]; repeat' constructor
theorem hostOps0_5_alloc : (hostOps0_5 : List (HloOp τ sig (Elt F))).Forall fun op => op.fresh = ∅ := by
  simp only [List.Forall]; repeat' constructor
theorem hostOps0_6_alloc : (hostOps0_6 : List (HloOp τ sig (Elt F))).Forall fun op => op.fresh = ∅ := by
  simp only [List.Forall]; repeat' constructor
theorem hostOps0_7_alloc : (hostOps0_7 : List (HloOp τ sig (Elt F))).Forall fun op => op.fresh = ∅ := by
  simp only [List.Forall]; repeat' constructor
theorem hostOps0_8_alloc : (hostOps0_8 : List (HloOp τ sig (Elt F))).Forall fun op => op.fresh = ∅ := by
  simp only [List.Forall]; repeat' constructor
theorem hostOps1_alloc : (hostOps1 : List (HloOp τ sig (Elt F))).Forall fun op => op.fresh = ∅ := by
  simp only [List.Forall]; repeat' constructor

/-- The program is: the host lines before the region, the region, the one host line after it. -/
theorem around (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_alloc, hostOps0_1_alloc, hostOps0_2_alloc, hostOps0_3_alloc, hostOps0_4_alloc, hostOps0_5_alloc, hostOps0_6_alloc, hostOps0_7_alloc, hostOps0_8_alloc⟩) main_chain

/-- The line after the region touches only the pipeline's arrays and buffers that bypass it, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem tail_alloc : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_alloc) op hop
/-- and writes none of the pipeline's five arrays (it writes the final reshaped result only). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0. -/
theorem entry_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 1. -/
theorem entry_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 2. -/
theorem entry_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 3. -/
theorem entry_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 4. -/
theorem entry_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 5. -/
theorem entry_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 6. -/
theorem entry_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 7. -/
theorem entry_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 8. -/
theorem entry_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 9. -/
theorem entry_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 10. -/
theorem entry_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 11. -/
theorem entry_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 12. -/
theorem entry_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 0 ends as launched. -/
theorem exit_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact entry_arg0 m c
/-- Nor does the line after it: argument 1 ends as launched. -/
theorem exit_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact entry_arg1 m c
/-- Nor does the line after it: argument 2 ends as launched. -/
theorem exit_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact entry_arg2 m c
/-- Nor does the line after it: argument 3 ends as launched. -/
theorem exit_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact entry_arg3 m c
/-- Nor does the line after it: argument 4 ends as launched. -/
theorem exit_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact entry_arg4 m c
/-- Nor does the line after it: argument 5 ends as launched. -/
theorem exit_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact entry_arg5 m c
/-- Nor does the line after it: argument 6 ends as launched. -/
theorem exit_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact entry_arg6 m c
/-- Nor does the line after it: argument 7 ends as launched. -/
theorem exit_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact entry_arg7 m c
/-- Nor does the line after it: argument 8 ends as launched. -/
theorem exit_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact entry_arg8 m c
/-- Nor does the line after it: argument 9 ends as launched. -/
theorem exit_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact entry_arg9 m c
/-- Nor does the line after it: argument 10 ends as launched. -/
theorem exit_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact entry_arg10 m c
/-- Nor does the line after it: argument 11 ends as launched. -/
theorem exit_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact entry_arg11 m c
/-- Nor does the line after it: argument 12 ends as launched. -/
theorem exit_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact entry_arg12 m c

/-! ## The blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem held0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem held1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem held2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem held3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run to the library's post for the region-with-tail, the thirteen argument arrays end as launched:
    none of them is an array of the pipeline (those are host results), so each is read by the post's second
    clause and then through the tail and the prefix, neither of which writes it. -/
theorem unchanged_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (exit_arg0 m dats c),
    ((h c).2 main_arg1 (Pipeline.mem_restRefs_of main_arg1 (by decide) (by decide))).trans (exit_arg1 m dats c),
    ((h c).2 main_arg2 (Pipeline.mem_restRefs_of main_arg2 (by decide) (by decide))).trans (exit_arg2 m dats c),
    ((h c).2 main_arg3 (Pipeline.mem_restRefs_of main_arg3 (by decide) (by decide))).trans (exit_arg3 m dats c),
    ((h c).2 main_arg4 (Pipeline.mem_restRefs_of main_arg4 (by decide) (by decide))).trans (exit_arg4 m dats c),
    ((h c).2 main_arg5 (Pipeline.mem_restRefs_of main_arg5 (by decide) (by decide))).trans (exit_arg5 m dats c),
    ((h c).2 main_arg6 (Pipeline.mem_restRefs_of main_arg6 (by decide) (by decide))).trans (exit_arg6 m dats c),
    ((h c).2 main_arg7 (Pipeline.mem_restRefs_of main_arg7 (by decide) (by decide))).trans (exit_arg7 m dats c),
    ((h c).2 main_arg8 (Pipeline.mem_restRefs_of main_arg8 (by decide) (by decide))).trans (exit_arg8 m dats c),
    ((h c).2 main_arg9 (Pipeline.mem_restRefs_of main_arg9 (by decide) (by decide))).trans (exit_arg9 m dats c),
    ((h c).2 main_arg10 (Pipeline.mem_restRefs_of main_arg10 (by decide) (by decide))).trans (exit_arg10 m dats c),
    ((h c).2 main_arg11 (Pipeline.mem_restRefs_of main_arg11 (by decide) (by decide))).trans (exit_arg11 m dats c),
    ((h c).2 main_arg12 (Pipeline.mem_restRefs_of main_arg12 (by decide) (by decide))).trans (exit_arg12 m dats c)⟩) h

/-! ## What one grid point computes -/

abbrev rx : Rect S1x320x1024 := Rect.unit (s := S1x320x1024) ![0, 0, 0] S1x320x1024.size Gen.inb_S1x320x1024_S1x320x1024_0_0_0
abbrev rw24 : Rect S320x24 := Rect.unit (s := S320x24) ![0, 0] S320x24.size Gen.inb_S320x24_S320x24_0_0
abbrev rw10 : Rect S320x10 := Rect.unit (s := S320x10) ![0, 0] S320x10.size Gen.inb_S320x10_S320x10_0_0

/-- The likelihood block one grid point stores, as a function of the four blocks it loads: the input slab
    `x0`, the packed weights `x1`, the packed gates `x2` and the packed biases `x3`. The two branch
    evaluations (at the input shifted up and down by one half) run through the four layers; the generated
    payloads hold the arithmetic of each stretch. -/
def pointValue (x0 : Vec F S1x320x1024 .f32) (x1 : Vec F S320x24 .f32) (x2 : Vec F S320x10 .f32) (x3 : Vec F S320x10 .f32) :
    Vec F S1x320x1024 .f32 :=
  let v0 := View.ld x0 rx
  let v2 := View.ld x1 rw24
  let v4 := View.ld x2 rw10
  let v6 := View.ld x3 rw10
  let v1 := k0_pay2 v0
  let v3 := k0_pay3 v2
  let v5 := k0_pay4 v4
  let v7 := k0_pay5 v6
  let v20 := k0_pay7 v0 v2 v4 v6
  let v31 := k0_pay8 v0 v2 v4 v6
  let v42 := k0_pay9 v0 v2 v4 v6
  let v45 := k0_pay10 v0 v2 v4 v6
  let v48 := k0_pay11 v0 v2 v4 v6
  let v61 := k0_pay12 v3 v5 v7 v42 v45 v48
  let v80 := k0_pay13 v3 v5 v7 v20 v31 v42
  let v99 := k0_pay14 v3 v5 v7 v20 v31 v42
  let v106 := k0_pay15 v3 v5 v7 v20 v31 v42 v45 v48
  let v108 := k0_pay16 v3
  let v167 := k0_pay17 v3 v5 v7 v61 v80 v99 v106 v108
  let v168 := k0_pay18 v7
  let v175 := k0_pay19 v5 v167 v168
  let v188 := k0_pay21 v1 v3 v5 v7
  let v199 := k0_pay22 v1 v3 v5 v7
  let v210 := k0_pay23 v1 v3 v5 v7
  let v225 := k0_pay24 v1 v3 v5 v7
  let v226 := k0_pay25 v1 v3 v5 v7
  let v227 := k0_pay26 v5
  let v229 := k0_pay27 v225 v226 v227
  let v248 := k0_pay28 v3 v5 v7 v188 v199 v210
  let v267 := k0_pay29 v3 v5 v7 v188 v199 v210
  let v286 := k0_pay30 v3 v5 v7 v188 v199 v210 v225 v226 v227
  let v287 := k0_pay31 v3
  let v343 := k0_pay32 v3 v5 v7 v229 v248 v267 v286 v287
  let v344 := k0_pay33 v3 v5 v7 v175 v229 v248 v267 v286 v287
  k0_pay1 v175 v343 v344

/-- The output buffer after the body: its one store, which covers the whole block. -/
def out4 (x0 : Vec F S1x320x1024 .f32) (x1 : Vec F S320x24 .f32) (x2 : Vec F S320x10 .f32) (x3 : Vec F S320x10 .f32) :
    Vec F S1x320x1024 .f32 :=
  View.canon [⟨rx, pointValue x0 x1 x2 x3⟩]

theorem covers4 (p0 : Vec F S1x320x1024 .f32) (y : S1x320x1024.Idx) :
    ∃ pc ∈ ([⟨rx, p0⟩] : List (View.Piece (Elt F) S1x320x1024 .f32)), y ∈ pc.1.set :=
  View.cover_of_tiled [⟨rx, p0⟩] S1x320x1024.size (by rfl) y

/-! ## The body's triple -/

set_option maxHeartbeats 4000000 in
/-- The body on whole staging buffers — the four inputs at read contents, the output at anything — returns with
    the inputs as they were and the output holding `out4` of the inputs. -/
theorem body_triple (c : Dev nD) (E : Set ℕ) (i : grid0.Coords)
    (arg1 : Memref sig .tc .vmem S1x320x1024 .f32) (harg1 : arg1.IsWhole) (arg2 : Memref sig .tc .vmem S320x24 .f32) (harg2 : arg2.IsWhole)
    (arg3 : Memref sig .tc .vmem S320x10 .f32) (harg3 : arg3.IsWhole) (arg4 : Memref sig .tc .vmem S320x10 .f32) (harg4 : arg4.IsWhole)
    (arg5 : Memref sig .tc .vmem S1x320x1024 .f32) (harg5 : arg5.IsWhole)
    (x0 : Vec F S1x320x1024 .f32) (x1 : Vec F S320x24 .f32) (x2 : Vec F S320x10 .f32) (x3 : Vec F S320x10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ K ⟨⟩))
      ⊢ wp frame (wpE (defs₀ (F := F)) Variants.none c none) E (cc0__mlp_kernel i arg1 harg1 arg2 harg2 arg3 harg3 arg4 harg4 arg5 harg5) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers4 _)

/-! ## The proof data -/

/-- Per core: the arrays as the region finds them; after the body at point `t` each input buffer still at its
    block and the output buffer at `out4` of the four input blocks; nothing else owned or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := Pipeline.ΦA spec0 c
  q _ := fullShare
  owed _ := 0

theorem arrays_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = out4 (iblk m c 0 t) (iblk m c 1 t) (iblk m c 2 t) (iblk m c 3 t) := by dsimp only [dats]

theorem held0 (c : Dev nD) (t : Fin cfg0.N) (d) : (dats m 0 c).before 0 t d = iblk m c 0 t :=
  held0_of m (dats m 0 c) (arrays_eq m c 0) (after_0 m c) t d
theorem held1 (c : Dev nD) (t : Fin cfg0.N) (d) : (dats m 0 c).before 1 t d = iblk m c 1 t :=
  held1_of m (dats m 0 c) (arrays_eq m c 1) (after_1 m c) t d
theorem held2 (c : Dev nD) (t : Fin cfg0.N) (d) : (dats m 0 c).before 2 t d = iblk m c 2 t :=
  held2_of m (dats m 0 c) (arrays_eq m c 2) (after_2 m c) t d
theorem held3 (c : Dev nD) (t : Fin cfg0.N) (d) : (dats m 0 c).before 3 t d = iblk m c 3 t :=
  held3_of m (dats m 0 c) (arrays_eq m c 3) (after_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the input buffers hold their blocks, so the body's triple applies; the invariant and the
    core's debts pass through untouched. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2, held3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_triple c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- Every weakly fair execution of the program terminates without fault; afterwards each array of the pipeline
    holds what the proof data's write-backs leave in it, and every other unscoped buffer what the line after
    the region computes from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_alloc) (hkeep := tail_keeps)
    (hmain := around m Variants.none) (hA := arrays_eq m) (hΦ := fun _ _ => rfl)

/-- The frame: the program runs to the end, faults nowhere, and leaves its thirteen arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  unchanged_of m ρ (dats m) (run_main m ρ)

end Cert.KernelIdeal.Frm

end
-- ==== Proof.Spec.lean ====
import Idealize.ShloMosaic.PureOps.Ideal
import Idealize.ShloMosaic.Lib.ValueIdx

/-!
The likelihood of one input element, as a function of that element and of its channel's parameters.

A channel carries a small network with layer widths 1 → 3 → 3 → 3 → 1. Each unit forms an affine
combination `r = Σ w·p + b` of the previous layer's values and returns `r + a · tanh r` (a gated residual);
the weights `w` are already positive (softplus of the raw weights) and the gates `a` already squashed (tanh of
the raw gates) when they reach this function. The network is evaluated at `x + 1/2` and at `x − 1/2`; with
`g` minus the sign of the sum of the two values, the likelihood is `|σ(g·u) − σ(g·l)|`, floored at a small
positive constant. Everything is stated on the extended reals, where every operation is total, so the
function needs no finiteness hypothesis.
-/

noncomputable section

namespace Cert.Spec

open Idealize.ShloMosaic

/-- A unit with one input: `r + a · tanh r` at `r = w · p + b`. -/
def unit1 (w b a p : EReal) : EReal :=
  (w * p + b) + a * Ideal.tanh (w * p + b)

/-- A unit with three inputs: `r + a · tanh r` at `r = w₀·p₀ + w₁·p₁ + w₂·p₂ + b` (summed left to right). -/
def unit3 (w0 w1 w2 b a p0 p1 p2 : EReal) : EReal :=
  (w0 * p0 + w1 * p1 + w2 * p2 + b) + a * Ideal.tanh (w0 * p0 + w1 * p1 + w2 * p2 + b)

/-- The channel's network at the value `v`. `W` is the channel's 24 weights — 3 of the first layer, 9 and 9 of
    the two middle layers (row-major: unit `i`, input `j` at `3·i + j`), 3 of the last —, `A` its 10 gates and `B`
    its 10 biases (3, 3, 3, 1 by layer). -/
def net (W : Fin 24 → EReal) (A B : Fin 10 → EReal) (v : EReal) : EReal :=
  let p0 := unit1 (W 0) (B 0) (A 0) v
  let p1 := unit1 (W 1) (B 1) (A 1) v
  let p2 := unit1 (W 2) (B 2) (A 2) v
  let q0 := unit3 (W 3) (W 4) (W 5) (B 3) (A 3) p0 p1 p2
  let q1 := unit3 (W 6) (W 7) (W 8) (B 4) (A 4) p0 p1 p2
  let q2 := unit3 (W 9) (W 10) (W 11) (B 5) (A 5) p0 p1 p2
  let s0 := unit3 (W 12) (W 13) (W 14) (B 6) (A 6) q0 q1 q2
  let s1 := unit3 (W 15) (W 16) (W 17) (B 7) (A 7) q0 q1 q2
  let s2 := unit3 (W 18) (W 19) (W 20) (B 8) (A 8) q0 q1 q2
  unit3 (W 21) (W 22) (W 23) (B 9) (A 9) s0 s1 s2

/-- One half, as the float literal both programs carry. -/
def half : EReal := Ideal.ofBits .f32 0x3F000000#32
/-- The likelihood floor, as the float literal both programs carry (the float nearest 1e-9). -/
def floor : EReal := Ideal.ofBits .f32 0x3089705F#32

/-- The likelihood of the element `x` under the channel's network. -/
def likelihood (W : Fin 24 → EReal) (A B : Fin 10 → EReal) (x : EReal) : EReal :=
  let u := net W A B (x + half)
  let l := net W A B (x - half)
  let g := -(Ideal.sign (u + l))
  let d := Ideal.logistic (g * u) - Ideal.logistic (g * l)
  max (max d (-d)) floor

end Cert.Spec

end
-- ==== Proof.Elem.lean ====
import proofs.«122539_j4982162063467_2_alg».proof.Proof.IdealFrame
import proofs.«122539_j4982162063467_2_alg».proof.Proof.Spec
import Idealize.ShloMosaic.Lib.Pipeline.Value
import Idealize.ShloMosaic.Lib.ValueIdx
import Idealize.ShloMosaic.PureOps.Ideal.Laws

/-!
What one grid point stores, read at one element: the likelihood of the input element under the
parameters in its row of the three packed tables.

Every operation of the body is elementwise except three kinds of re-laying: a column of a packed table
spread along the lanes, the unit leading axis of a block dropped, and that axis put back. Once those are
read at an element, the body's arithmetic at row `r`, lane `l` is the specification's term.
-/

set_option maxRecDepth 16384

noncomputable section

namespace Cert.Lanes

open Idealize.ShloMosaic Idealize.ShloMosaic.ValueIdx

variable {α : Type}

/-- Column `k` of a [320, n] table, spread along the 1024 lanes: at row `r`, lane `l`, it is the table's
    entry at `[r, k]`. -/
theorem spread_apply {n : Nat} (k : Nat) (v : (⟨2, ![320, n]⟩ : Shape).Idx → α)
    (hs : (⟨2, ![320, n]⟩ : Shape).Slices ![0, k] ⟨2, ![320, 1]⟩)
    (hb : (⟨2, ![320, 1]⟩ : Shape).Broadcasts ⟨2, ![320, 1024]⟩) (r : Fin 320) (l : Fin 1024) :
    broadcastTo ⟨2, ![320, 1024]⟩ (extractStridedSlice ⟨2, ![320, 1]⟩ ![0, k] v hs) hb (ix2 r l)
      = v (ix2 r ⟨k, by have := hs.2 1; simpa using this⟩) := by
  refine (broadcastTo_apply _ hb (ix2 r l) (ix2 r (0 : Fin 1)) (fun a => ?_)).trans ?_
  · match a with
    | ⟨0, _⟩ => rfl
    | ⟨1, _⟩ => rfl
  · refine extractStridedSlice_apply ![0, k] v hs (ix2 r (0 : Fin 1)) _ (fun a => ?_)
    match a with
    | ⟨0, _⟩ => show r.val = 0 + r.val; omega
    | ⟨1, _⟩ => show k = k + 0; omega

/-- A [1, 320, 1024] block viewed as a [320, 1024] slab: entry `[r, l]` is the block's `[0, r, l]`. -/
theorem slab_apply (v : (⟨3, ![1, 320, 1024]⟩ : Shape).Idx → α)
    (h : (⟨3, ![1, 320, 1024]⟩ : Shape).ShapeCasts ⟨2, ![320, 1024]⟩) (r : Fin 320) (l : Fin 1024) :
    shapeCast ⟨2, ![320, 1024]⟩ v h (ix2 r l) = v (ix3 (0 : Fin 1) r l) := by
  refine shapeCast_apply v h (ix2 r l) (ix3 (0 : Fin 1) r l) ?_
  rw [Shape.rowMajor_val_three, Shape.rowMajor_val_two]
  show (0 * 320 + r.val) * 1024 + l.val = r.val * 1024 + l.val
  omega

/-- A [320, 1024] slab stored as a [1, 320, 1024] block: entry `[0, r, l]` is the slab's `[r, l]`. -/
theorem block_apply (v : (⟨2, ![320, 1024]⟩ : Shape).Idx → α)
    (h : (⟨2, ![320, 1024]⟩ : Shape).ShapeCasts ⟨3, ![1, 320, 1024]⟩) (z : Fin 1) (r : Fin 320) (l : Fin 1024) :
    shapeCast ⟨3, ![1, 320, 1024]⟩ v h (ix3 z r l) = v (ix2 r l) := by
  refine shapeCast_apply v h (ix3 z r l) (ix2 r l) ?_
  rw [Shape.rowMajor_val_three, Shape.rowMajor_val_two]
  show r.val * 1024 + l.val = (z.val * 320 + r.val) * 1024 + l.val
  have := z.isLt
  omega

variable {s : Shape} {φ : FTy}

theorem tanh_apply (a : FVec Ideal s φ) (i : s.Idx) : tanh a i = Ideal.tanh (a i) := rfl
theorem logistic_apply (a : FVec Ideal s φ) (i : s.Idx) : logistic a i = Ideal.logistic (a i) := rfl
theorem absf_apply (a : FVec Ideal s φ) (i : s.Idx) : absf a i = FloatOps.absf (a i) := rfl
theorem constant_at (b : BitVec φ.bits) (i : s.Idx) : constant (F := Ideal) s φ b i = FloatOps.ofBits φ b := rfl

end Cert.Lanes

namespace Cert.KernelIdeal.Elem

open Idealize.ShloMosaic Idealize.ShloMosaic.ValueIdx Cert.KernelIdeal Cert.KernelIdeal.Gen Cert.Lanes

theorem zeros3 : (![0, 0, 0] : Fin 3 → Nat) = fun _ => 0 := funext fun a => by fin_cases a <;> rfl
theorem zeros2 : (![0, 0] : Fin 2 → Nat) = fun _ => 0 := funext fun a => by fin_cases a <;> rfl

set_option maxHeartbeats 4000000 in
/-- The block a grid point stores, at `[0, r, l]`: the likelihood of the input block's element there, under the
    parameters in row `r` of the weight, gate and bias tables. -/
theorem pointValue_at (x0 : Vec Ideal S1x320x1024 .f32) (x1 : Vec Ideal S320x24 .f32) (x2 x3 : Vec Ideal S320x10 .f32)
    (z : Fin 1) (r : Fin 320) (l : Fin 1024) :
    Frm.pointValue (F := Ideal) x0 x1 x2 x3 (ix3 z r l)
      = Cert.Spec.likelihood (fun k => x1 (ix2 r k)) (fun k => x2 (ix2 r k)) (fun k => x3 (ix2 r k)) (x0 (ix3 z r l)) := by
  obtain rfl : z = 0 := Subsingleton.elim _ _
  unfold Frm.pointValue
  simp only [View.ld_unit_zero (S := S1x320x1024) zeros3, View.ld_unit_zero (S := S320x24) zeros2,
    View.ld_unit_zero (S := S320x10) zeros2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, shapeCast_self, block_apply, slab_apply, spread_apply, addf_apply, mulf_apply, subf_apply, maximumf_apply,
    select_apply, cmpf_apply, broadcast_apply, tanh_apply, logistic_apply, absf_apply, constant_at]
  simp only [Ideal.jnp_sign_eq_sign_f32]
  simp only [Ideal.ofBits_def, Ideal.ofBits_zero_f32, zero_sub, Ideal.absf_def]
  rfl

end Cert.KernelIdeal.Elem

end
-- ==== Proof.Blocks.lean ====
import proofs.«122539_j4982162063467_2_alg».proof.Proof.IdealFrame
import proofs.«122539_j4982162063467_2_alg».proof.Proof.Elem

/-!
From blocks to the array: the likelihood array after the region.

Grid point `t` reads slab `t` of the flattened input and the three packed tables whole, and writes back slab
`t` of the output. Each slab it writes is the corresponding slab of one whole-array function of the arrays
as the region finds them, and the sixteen slabs cover the output; so the output array ends as that function.
-/

set_option maxRecDepth 16384

noncomputable section

namespace Cert.KernelIdeal.Blocks

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Frm Cert.KernelIdeal.Elem

variable (m : (ℓ : Loc nD τ sig) → Buf (Elt Ideal) ℓ) (ρ : Dev nD → PrngReg)

/-- The output array as a function of the flattened input `X` and the packed tables: entry `[n, r, l]` is the
    likelihood of `X [n, r, l]` under row `r` of the tables. -/
def arrayFn (X : S16x320x1024.Idx → EReal) (Wc : S320x24.Idx → EReal) (Ac Bc : S320x10.Idx → EReal) :
    S16x320x1024.Idx → EReal :=
  fun j => Cert.Spec.likelihood (fun k => Wc (ix2 (j 1) k)) (fun k => Ac (ix2 (j 1) k)) (fun k => Bc (ix2 (j 1) k)) (X j)

/-- The index maps over the grid: the input and output windows sit at slab `t`; the three tables at their origin. -/
theorem index_facts : ∀ t : Fin cfg0.N,
    win0_0.index t (0 : Fin 3) = t.val ∧ win0_0.index t (1 : Fin 3) = 0 ∧ win0_0.index t (2 : Fin 3) = 0
    ∧ win0_4.index t (0 : Fin 3) = t.val ∧ win0_4.index t (1 : Fin 3) = 0 ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

set_option maxHeartbeats 1600000 in
/-- The input window and the output window sit at the same slab. -/
theorem read_input (c : Dev nD) (t : Fin cfg0.N) (z : Fin 1) (r : Fin 320) (l : Fin 1024) :
    iblk m c 0 t (ix3 z r l) = (V m c main_v0 : S16x320x1024.Idx → EReal) (((cfg0.win 4).blk t).view.emb (ix3 z r l)) := by
  obtain ⟨a0, a1, a2, b0, b1, b2, -⟩ := index_facts t
  show (V m c main_v0 : S16x320x1024.Idx → EReal) (((cfg0.win 0).blk t).view.emb (ix3 z r l)) = _
  have he : (((cfg0.win 0).blk t).view.emb (ix3 z r l) : S16x320x1024.Idx) = ((cfg0.win 4).blk t).view.emb (ix3 z r l) := by
    funext a; apply Fin.ext
    match a with
    | ⟨0, _⟩ => show win0_0.index t (0 : Fin 3) * 1 + 1 * z.val = win0_4.index t (0 : Fin 3) * 1 + 1 * z.val; omega
    | ⟨1, _⟩ => show win0_0.index t (1 : Fin 3) * 320 + 1 * r.val = win0_4.index t (1 : Fin 3) * 320 + 1 * r.val; omega
    | ⟨2, _⟩ => show win0_0.index t (2 : Fin 3) * 1024 + 1 * l.val = win0_4.index t (2 : Fin 3) * 1024 + 1 * l.val; omega
  rw [he]

set_option maxHeartbeats 1600000 in
/-- The row coordinate of an entry of point `t`'s output slab is the row inside the slab. -/
theorem slab_row (t : Fin cfg0.N) (z : Fin 1) (r : Fin 320) (l : Fin 1024) :
    ((((cfg0.win 4).blk t).view.emb (ix3 z r l) : S16x320x1024.Idx) 1 : Fin 320) = r := by
  obtain ⟨-, -, -, b0, b1, b2, -⟩ := index_facts t
  apply Fin.ext
  show win0_4.index t (1 : Fin 3) * 320 + 1 * r.val = r.val
  omega

set_option maxHeartbeats 1600000 in
/-- Table window 1 sits at its array's origin and spans it: its block at any point reads the array itself. -/
theorem read_table1 (c : Dev nD) (t : Fin cfg0.N) (r : Fin 320) (k : Fin 24) :
    iblk m c 1 t (ix2 r k) = (V m c main_v21 : S320x24.Idx → EReal) (ix2 r k) := by
  obtain ⟨-, -, -, -, -, -, c0, c1, d0, d1, e0, e1⟩ := index_facts t
  show (V m c main_v21 : S320x24.Idx → EReal) (((cfg0.win 1).blk t).view.emb (ix2 r k)) = _
  have he : (((cfg0.win 1).blk t).view.emb (ix2 r k) : S320x24.Idx) = (ix2 r k : S320x24.Idx) := by
    funext a; apply Fin.ext
    match a with
    | ⟨0, _⟩ => show win0_1.index t (0 : Fin 2) * 320 + 1 * r.val = r.val; omega
    | ⟨1, _⟩ => show win0_1.index t (1 : Fin 2) * 24 + 1 * k.val = k.val; omega
  rw [he]

set_option maxHeartbeats 1600000 in
/-- Table window 2 sits at its array's origin and spans it: its block at any point reads the array itself. -/
theorem read_table2 (c : Dev nD) (t : Fin cfg0.N) (r : Fin 320) (k : Fin 10) :
    iblk m c 2 t (ix2 r k) = (V m c main_v22 : S320x10.Idx → EReal) (ix2 r k) := by
  obtain ⟨-, -, -, -, -, -, c0, c1, d0, d1, e0, e1⟩ := index_facts t
  show (V m c main_v22 : S320x10.Idx → EReal) (((cfg0.win 2).blk t).view.emb (ix2 r k)) = _
  have he : (((cfg0.win 2).blk t).view.emb (ix2 r k) : S320x10.Idx) = (ix2 r k : S320x10.Idx) := by
    funext a; apply Fin.ext
    match a with
    | ⟨0, _⟩ => show win0_2.index t (0 : Fin 2) * 320 + 1 * r.val = r.val; omega
    | ⟨1, _⟩ => show win0_2.index t (1 : Fin 2) * 10 + 1 * k.val = k.val; omega
  rw [he]

set_option maxHeartbeats 1600000 in
/-- Table window 3 sits at its array's origin and spans it: its block at any point reads the array itself. -/
theorem read_table3 (c : Dev nD) (t : Fin cfg0.N) (r : Fin 320) (k : Fin 10) :
    iblk m c 3 t (ix2 r k) = (V m c main_v23 : S320x10.Idx → EReal) (ix2 r k) := by
  obtain ⟨-, -, -, -, -, -, c0, c1, d0, d1, e0, e1⟩ := index_facts t
  show (V m c main_v23 : S320x10.Idx → EReal) (((cfg0.win 3).blk t).view.emb (ix2 r k)) = _
  have he : (((cfg0.win 3).blk t).view.emb (ix2 r k) : S320x10.Idx) = (ix2 r k : S320x10.Idx) := by
    funext a; apply Fin.ext
    match a with
    | ⟨0, _⟩ => show win0_3.index t (0 : Fin 2) * 320 + 1 * r.val = r.val; omega
    | ⟨1, _⟩ => show win0_3.index t (1 : Fin 2) * 10 + 1 * k.val = k.val; omega
  rw [he]

set_option maxHeartbeats 1600000 in
/-- What point `t` writes back is slab `t` of `arrayFn` of the arrays as the region finds them. -/
theorem flushed_eq (c : Dev nD) (t : Fin cfg0.N) :
    (dats m 0 c).flushed 4 t = ((cfg0.win 4).blk t).view.read (Elt Ideal)
      (arrayFn (V m c main_v0) (V m c main_v21) (V m c main_v22) (V m c main_v23)) := by
  show (cfg0.win 4).cut (grid0.coords t) ((dats m 0 c).after 4 t) = _
  rw [after_4]
  unfold out4
  rw [View.canon_unit_zero zeros3]
  funext y
  obtain ⟨z, r, l, rfl⟩ : ∃ (z : Fin 1) (r : Fin 320) (l : Fin 1024), y = ix3 z r l := ⟨y 0, y 1, y 2, eq_ix3 y⟩
  show pointValue (F := Ideal) (iblk m c 0 t) (iblk m c 1 t) (iblk m c 2 t) (iblk m c 3 t) (ix3 z r l) = _
  rw [pointValue_at, View.read_apply]
  simp only [read_input m c t z r l, read_table1 m c t r, read_table2 m c t r, read_table3 m c t r]
  unfold arrayFn
  rw [slab_row t z r l]
  exact (cast_eq _ _).symm

/-- An entry of the output array is in point `t`'s slab iff each coordinate is in the slab's range on its axis. -/
theorem mem_slab (t : Fin cfg0.N) (i : S16x320x1024.Idx) :
    i ∈ ((cfg0.win 4).blk t).view.set ↔ ∀ a : Fin 3, win0_4.index t a * S1x320x1024.size a ≤ (i a).val
      ∧ (i a).val < win0_4.index t a * S1x320x1024.size a + S1x320x1024.size a := by
  show i ∈ ((View.whole main_v24).slice (win0_4.rect t)).set ↔ _
  rw [View.set_slice_whole, Rect.mem_set_unit]
  exact Iff.rfl

/-- Every entry of the output array lies in the slab of the grid point its leading coordinate names. -/
theorem covered (i : S16x320x1024.Idx) :
    ∃ t : Fin cfg0.N, (cfg0.win 4).flush t = true ∧ i ∈ ((cfg0.win 4).blk t).view.set := by
  have h0 : (i 0).val < 16 := (i 0).isLt
  have h1 : (i 1).val < 320 := (i 1).isLt
  have h2 : (i 2).val < 1024 := (i 2).isLt
  have hN : cfg0.N = 16 := N_0
  obtain ⟨t, ht⟩ : ∃ t : Fin cfg0.N, t.val = (i 0).val := ⟨⟨(i 0).val, by omega⟩, rfl⟩
  obtain ⟨-, -, -, b0, b1, b2, -⟩ := index_facts t
  refine ⟨t, flush0_4 t, ?_⟩
  rw [mem_slab]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 320 ≤ (i 1).val ∧ (i 1).val < win0_4.index t (1 : Fin 3) * 320 + 320; omega
  | ⟨2, _⟩ => show win0_4.index t (2 : Fin 3) * 1024 ≤ (i 2).val ∧ (i 2).val < win0_4.index t (2 : Fin 3) * 1024 + 1024; omega

/-- The output array after the region. -/
theorem final_array (c : Dev nD) :
    (dats m 0 c).arrAt 4 cfg0.N = arrayFn (V m c main_v0) (V m c main_v21) (V m c main_v22) (V m c main_v23) :=
  (dats m 0 c).arrAt_eq_of_cover 4 _ (fun t _ => flushed_eq m c t) covered

end Cert.KernelIdeal.Blocks

end
-- ==== Proof.LibTables.lean ====
import Idealize.ShloMosaic.Lib.Pipeline.Value
import Idealize.ShloMosaic.Lib.ValueIdx

/-!
Two layout reads on tables with 320 rows, at an entry.

* Four tables laid side by side (a concatenation along the column axis): the entry at a column in table `k`'s
  span is table `k`'s entry at that column less the widths of the tables before it.
* A rank-3 array [320, a, b] flattened to [320, a·b]: the entry at column `i·b + j` is the array's `[r, i, j]`.
-/

noncomputable section

namespace Cert.LibTables

open Idealize.ShloMosaic Idealize.ShloMosaic.ValueIdx

variable {α : Type}

/-- Four tables side by side: a column in table 0's span reads table 0. -/
theorem concat4_piece0 {n0 n1 n2 n3 N : Nat}
    (x0 : (⟨2, ![320, n0]⟩ : Shape).Idx → α) (x1 : (⟨2, ![320, n1]⟩ : Shape).Idx → α)
    (x2 : (⟨2, ![320, n2]⟩ : Shape).Idx → α) (x3 : (⟨2, ![320, n3]⟩ : Shape).Idx → α)
    (h : Shape.Concatenates [(⟨2, ![320, n0]⟩ : Shape), ⟨2, ![320, n1]⟩, ⟨2, ![320, n2]⟩, ⟨2, ![320, n3]⟩] ⟨2, ![320, N]⟩ 1)
    (r : Fin 320) (q : Fin N) (p : Fin n0) (hp : q.val = p.val) :
    concatenate (⟨2, ![320, N]⟩ : Shape) 1 [⟨⟨2, ![320, n0]⟩, x0⟩, ⟨⟨2, ![320, n1]⟩, x1⟩, ⟨⟨2, ![320, n2]⟩, x2⟩, ⟨⟨2, ![320, n3]⟩, x3⟩] h (ix2 r q)
      = x0 (ix2 r p) := by
  refine concatenate_apply_piece (t := (⟨2, ![320, N]⟩ : Shape)) (1 : Fin 2)
    [⟨⟨2, ![320, n0]⟩, x0⟩, ⟨⟨2, ![320, n1]⟩, x1⟩, ⟨⟨2, ![320, n2]⟩, x2⟩, ⟨⟨2, ![320, n3]⟩, x3⟩] h (ix2 r q)
    0 (by simp) ⟨2, ![320, n0]⟩ x0 rfl rfl (0) (by simp) (ix2 r p) (fun b hb => ?_) ?_
  · match b with
    | ⟨0, _⟩ => rfl
    | ⟨1, _⟩ => exact absurd rfl hb
  · show 0 + p.val = q.val
    omega

/-- Four tables side by side: a column in table 1's span reads table 1. -/
theorem concat4_piece1 {n0 n1 n2 n3 N : Nat}
    (x0 : (⟨2, ![320, n0]⟩ : Shape).Idx → α) (x1 : (⟨2, ![320, n1]⟩ : Shape).Idx → α)
    (x2 : (⟨2, ![320, n2]⟩ : Shape).Idx → α) (x3 : (⟨2, ![320, n3]⟩ : Shape).Idx → α)
    (h : Shape.Concatenates [(⟨2, ![320, n0]⟩ : Shape), ⟨2, ![320, n1]⟩, ⟨2, ![320, n2]⟩, ⟨2, ![320, n3]⟩] ⟨2, ![320, N]⟩ 1)
    (r : Fin 320) (q : Fin N) (p : Fin n1) (hp : q.val = n0 + p.val) :
    concatenate (⟨2, ![320, N]⟩ : Shape) 1 [⟨⟨2, ![320, n0]⟩, x0⟩, ⟨⟨2, ![320, n1]⟩, x1⟩, ⟨⟨2, ![320, n2]⟩, x2⟩, ⟨⟨2, ![320, n3]⟩, x3⟩] h (ix2 r q)
      = x1 (ix2 r p) := by
  refine concatenate_apply_piece (t := (⟨2, ![320, N]⟩ : Shape)) (1 : Fin 2)
    [⟨⟨2, ![320, n0]⟩, x0⟩, ⟨⟨2, ![320, n1]⟩, x1⟩, ⟨⟨2, ![320, n2]⟩, x2⟩, ⟨⟨2, ![320, n3]⟩, x3⟩] h (ix2 r q)
    1 (by simp) ⟨2, ![320, n1]⟩ x1 rfl rfl (n0) (by simp) (ix2 r p) (fun b hb => ?_) ?_
  · match b with
    | ⟨0, _⟩ => rfl
    | ⟨1, _⟩ => exact absurd rfl hb
  · show n0 + p.val = q.val
    omega

/-- Four tables side by side: a column in table 2's span reads table 2. -/
theorem concat4_piece2 {n0 n1 n2 n3 N : Nat}
    (x0 : (⟨2, ![320, n0]⟩ : Shape).Idx → α) (x1 : (⟨2, ![320, n1]⟩ : Shape).Idx → α)
    (x2 : (⟨2, ![320, n2]⟩ : Shape).Idx → α) (x3 : (⟨2, ![320, n3]⟩ : Shape).Idx → α)
    (h : Shape.Concatenates [(⟨2, ![320, n0]⟩ : Shape), ⟨2, ![320, n1]⟩, ⟨2, ![320, n2]⟩, ⟨2, ![320, n3]⟩] ⟨2, ![320, N]⟩ 1)
    (r : Fin 320) (q : Fin N) (p : Fin n2) (hp : q.val = (n0 + n1) + p.val) :
    concatenate (⟨2, ![320, N]⟩ : Shape) 1 [⟨⟨2, ![320, n0]⟩, x0⟩, ⟨⟨2, ![320, n1]⟩, x1⟩, ⟨⟨2, ![320, n2]⟩, x2⟩, ⟨⟨2, ![320, n3]⟩, x3⟩] h (ix2 r q)
      = x2 (ix2 r p) := by
  refine concatenate_apply_piece (t := (⟨2, ![320, N]⟩ : Shape)) (1 : Fin 2)
    [⟨⟨2, ![320, n0]⟩, x0⟩, ⟨⟨2, ![320, n1]⟩, x1⟩, ⟨⟨2, ![320, n2]⟩, x2⟩, ⟨⟨2, ![320, n3]⟩, x3⟩] h (ix2 r q)
    2 (by simp) ⟨2, ![320, n2]⟩ x2 rfl rfl ((n0 + n1)) (by simp) (ix2 r p) (fun b hb => ?_) ?_
  · match b with
    | ⟨0, _⟩ => rfl
    | ⟨1, _⟩ => exact absurd rfl hb
  · show (n0 + n1) + p.val = q.val
    omega

/-- Four tables side by side: a column in table 3's span reads table 3. -/
theorem concat4_piece3 {n0 n1 n2 n3 N : Nat}
    (x0 : (⟨2, ![320, n0]⟩ : Shape).Idx → α) (x1 : (⟨2, ![320, n1]⟩ : Shape).Idx → α)
    (x2 : (⟨2, ![320, n2]⟩ : Shape).Idx → α) (x3 : (⟨2, ![320, n3]⟩ : Shape).Idx → α)
    (h : Shape.Concatenates [(⟨2, ![320, n0]⟩ : Shape), ⟨2, ![320, n1]⟩, ⟨2, ![320, n2]⟩, ⟨2, ![320, n3]⟩] ⟨2, ![320, N]⟩ 1)
    (r : Fin 320) (q : Fin N) (p : Fin n3) (hp : q.val = (n0 + n1 + n2) + p.val) :
    concatenate (⟨2, ![320, N]⟩ : Shape) 1 [⟨⟨2, ![320, n0]⟩, x0⟩, ⟨⟨2, ![320, n1]⟩, x1⟩, ⟨⟨2, ![320, n2]⟩, x2⟩, ⟨⟨2, ![320, n3]⟩, x3⟩] h (ix2 r q)
      = x3 (ix2 r p) := by
  refine concatenate_apply_piece (t := (⟨2, ![320, N]⟩ : Shape)) (1 : Fin 2)
    [⟨⟨2, ![320, n0]⟩, x0⟩, ⟨⟨2, ![320, n1]⟩, x1⟩, ⟨⟨2, ![320, n2]⟩, x2⟩, ⟨⟨2, ![320, n3]⟩, x3⟩] h (ix2 r q)
    3 (by simp) ⟨2, ![320, n3]⟩ x3 rfl rfl ((n0 + n1 + n2)) (by simp [Nat.add_assoc]) (ix2 r p) (fun b hb => ?_) ?_
  · match b with
    | ⟨0, _⟩ => rfl
    | ⟨1, _⟩ => exact absurd rfl hb
  · show (n0 + n1 + n2) + p.val = q.val
    omega

/-- A [320, a, b] array flattened to [320, n] with `n = a·b`, read at column `q = i·b + j`. -/
theorem flat_apply {a b n : Nat} (hn : n = a * b) (v : (⟨3, ![320, a, b]⟩ : Shape).Idx → α)
    (h : (⟨3, ![320, a, b]⟩ : Shape).ShapeCasts ⟨2, ![320, n]⟩) (r : Fin 320) (i : Fin a) (j : Fin b) (q : Fin n)
    (hq : q.val = i.val * b + j.val) :
    shapeCast (⟨2, ![320, n]⟩ : Shape) v h (ix2 r q) = v (ix3 r i j) := by
  refine shapeCast_apply v h (ix2 r q) (ix3 r i j) ?_
  rw [Shape.rowMajor_val_three, Shape.rowMajor_val_two]
  show (r.val * a + i.val) * b + j.val = r.val * n + q.val
  subst hn
  rw [hq]
  ring

end Cert.LibTables

end
-- ==== Proof.Target.lean ====
import proofs.«122539_j4982162063467_2_alg».proof.Proof.Spec

/-!
The result array both programs compute, as ONE function of the input and of the prepared parameter arrays.

The parameters arrive per layer: weights `W0 … W3` of shapes [320,3,1], [320,3,3], [320,3,3], [320,1,3]
(unit `i`, input `j` at `[c, i, j]`), gates `A0 … A3` and biases `B0 … B3` of shapes [320,3,1] ×3 and
[320,1,1]. A channel's 24 weights, 10 gates and 10 biases are laid out in the order the element function
`Cert.Spec.net` reads them: layer by layer, row-major within a layer. The result at `[n, c, h, w]` is the
likelihood of the input element at `[n, c, h, w]` under channel `c`'s network.
-/

noncomputable section

namespace Cert.Target

open Idealize.ShloMosaic Idealize.ShloMosaic.ValueIdx

abbrev Sx : Shape := ⟨4, ![16, 320, 32, 32]⟩
abbrev S31 : Shape := ⟨3, ![320, 3, 1]⟩
abbrev S33 : Shape := ⟨3, ![320, 3, 3]⟩
abbrev S13 : Shape := ⟨3, ![320, 1, 3]⟩
abbrev S11 : Shape := ⟨3, ![320, 1, 1]⟩

/-- Channel `c`'s 24 weights in reading order. -/
def wrow (W0 : S31.Idx → EReal) (W1 W2 : S33.Idx → EReal) (W3 : S13.Idx → EReal) (c : Fin 320) : Fin 24 → EReal :=
  ![W0 (ix3 c 0 0), W0 (ix3 c 1 0), W0 (ix3 c 2 0),
    W1 (ix3 c 0 0), W1 (ix3 c 0 1), W1 (ix3 c 0 2), W1 (ix3 c 1 0), W1 (ix3 c 1 1), W1 (ix3 c 1 2),
    W1 (ix3 c 2 0), W1 (ix3 c 2 1), W1 (ix3 c 2 2),
    W2 (ix3 c 0 0), W2 (ix3 c 0 1), W2 (ix3 c 0 2), W2 (ix3 c 1 0), W2 (ix3 c 1 1), W2 (ix3 c 1 2),
    W2 (ix3 c 2 0), W2 (ix3 c 2 1), W2 (ix3 c 2 2),
    W3 (ix3 c 0 0), W3 (ix3 c 0 1), W3 (ix3 c 0 2)]

/-- Channel `c`'s 10 gates, or 10 biases, in reading order: three per hidden layer, one for the last. -/
def prow (P0 P1 P2 : S31.Idx → EReal) (P3 : S11.Idx → EReal) (c : Fin 320) : Fin 10 → EReal :=
  ![P0 (ix3 c 0 0), P0 (ix3 c 1 0), P0 (ix3 c 2 0),
    P1 (ix3 c 0 0), P1 (ix3 c 1 0), P1 (ix3 c 2 0),
    P2 (ix3 c 0 0), P2 (ix3 c 1 0), P2 (ix3 c 2 0),
    P3 (ix3 c 0 0)]

/-- The result array. -/
def result (x : Sx.Idx → EReal) (W0 : S31.Idx → EReal) (W1 W2 : S33.Idx → EReal) (W3 : S13.Idx → EReal)
    (A0 A1 A2 : S31.Idx → EReal) (A3 : S11.Idx → EReal) (B0 B1 B2 : S31.Idx → EReal) (B3 : S11.Idx → EReal) :
    Sx.Idx → EReal :=
  fun i => Cert.Spec.likelihood (wrow W0 W1 W2 W3 (i 1)) (prow A0 A1 A2 A3 (i 1)) (prow B0 B1 B2 B3 (i 1)) (x i)

end Cert.Target

end
-- ==== Proof.Tables.lean ====
import proofs.«122539_j4982162063467_2_alg».proof.Proof.IdealFrame
import proofs.«122539_j4982162063467_2_alg».proof.Proof.LibTables
import proofs.«122539_j4982162063467_2_alg».proof.Proof.Target
import Idealize.ShloMosaic.Lib.StableHlo.Run

/-!
The arrays the region finds, as functions of the arguments.

The host lines before the region flatten the input's two spatial axes and build three packed tables: the
weights are the softplus of the raw weights, flattened per layer to [320, 3], [320, 9], [320, 9], [320, 3] and
laid side by side; the gates are the tanh of the raw gates, and the biases the raw biases, each flattened to
[320, 3] ×3 and [320, 1] and laid side by side. Row `r` of each table is therefore channel `r`'s parameters
in the order the element function reads them.
-/

set_option maxRecDepth 16384

noncomputable section

namespace Cert.KernelIdeal.Tables

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Frm Cert.LibTables

variable (m : (ℓ : Loc nD τ sig) → Buf (Elt Ideal) ℓ)

/-- The host's softplus, `max(x, 0) + log1p(exp(−|x − 0|))`, behind its guard `x − 0 ≠ x − 0` (never taken on
    the extended reals, which have no NaN), as the program spells it. -/
def softplus {s : Shape} (hb : S_.BroadcastsInDim s (![] : Fin 0 → Fin s.rank)) (x : FVec Ideal s .f32) : FVec Ideal s .f32 :=
  select (cmpf .une (subf x (broadcastInDim s ![] hb (constant S_ .f32 0x00000000#32))) (subf x (broadcastInDim s ![] hb (constant S_ .f32 0x00000000#32))))
    (addf x (broadcastInDim s ![] hb (constant S_ .f32 0x00000000#32)))
    (addf (maximumf x (broadcastInDim s ![] hb (constant S_ .f32 0x00000000#32)))
      (Host.log1p (Host.exp (Host.negf (Host.absf (subf x (broadcastInDim s ![] hb (constant S_ .f32 0x00000000#32))))))))

/-- The flattened input. -/
theorem entry_input (c : Dev nD) :
    (V m c main_v0 : S16x320x1024.Idx → EReal)
      = shapeCast S16x320x1024 (m ((c.tc : Thread nD τ).loc main_arg0) : FVec Ideal S16x320x32x32 .f32) Gen.shapeCasts_S16x320x32x32_S16x320x1024 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

/-- The packed weights. -/
theorem entry_weights (c : Dev nD) :
    (V m c main_v21 : S320x24.Idx → EReal)
      = concatenate S320x24 1
          [⟨S320x3, shapeCast S320x3 (softplus Gen.bcast_S_S320x3x1 (m ((c.tc : Thread nD τ).loc main_arg1) : FVec Ideal S320x3x1 .f32)) Gen.shapeCasts_S320x3x1_S320x3⟩,
           ⟨S320x9, shapeCast S320x9 (softplus Gen.bcast_S_S320x3x3 (m ((c.tc : Thread nD τ).loc main_arg2) : FVec Ideal S320x3x3 .f32)) Gen.shapeCasts_S320x3x3_S320x9⟩,
           ⟨S320x9, shapeCast S320x9 (softplus Gen.bcast_S_S320x3x3 (m ((c.tc : Thread nD τ).loc main_arg3) : FVec Ideal S320x3x3 .f32)) Gen.shapeCasts_S320x3x3_S320x9⟩,
           ⟨S320x3, shapeCast S320x3 (softplus Gen.bcast_S_S320x1x3 (m ((c.tc : Thread nD τ).loc main_arg4) : FVec Ideal S320x1x3 .f32)) Gen.shapeCasts_S320x1x3_S320x3⟩]
          Gen.concatenates_S320x3_S320x9_S320x9_S320x3_S320x24_d1 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

/-- The packed gates. -/
theorem entry_gates (c : Dev nD) :
    (V m c main_v22 : S320x10.Idx → EReal)
      = concatenate S320x10 1
          [⟨S320x3, shapeCast S320x3 (Host.tanh (F := Ideal) (s := S320x3x1) (φ := .f32) (m ((c.tc : Thread nD τ).loc main_arg5) : FVec Ideal S320x3x1 .f32)) Gen.shapeCasts_S320x3x1_S320x3⟩,
           ⟨S320x3, shapeCast S320x3 (Host.tanh (F := Ideal) (s := S320x3x1) (φ := .f32) (m ((c.tc : Thread nD τ).loc main_arg6) : FVec Ideal S320x3x1 .f32)) Gen.shapeCasts_S320x3x1_S320x3⟩,
           ⟨S320x3, shapeCast S320x3 (Host.tanh (F := Ideal) (s := S320x3x1) (φ := .f32) (m ((c.tc : Thread nD τ).loc main_arg7) : FVec Ideal S320x3x1 .f32)) Gen.shapeCasts_S320x3x1_S320x3⟩,
           ⟨S320x1, shapeCast S320x1 (Host.tanh (F := Ideal) (s := S320x1x1) (φ := .f32) (m ((c.tc : Thread nD τ).loc main_arg8) : FVec Ideal S320x1x1 .f32)) Gen.shapeCasts_S320x1x1_S320x1⟩]
          Gen.concatenates_S320x3_S320x3_S320x3_S320x1_S320x10_d1 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

/-- The packed biases. -/
theorem entry_biases (c : Dev nD) :
    (V m c main_v23 : S320x10.Idx → EReal)
      = concatenate S320x10 1
          [⟨S320x3, shapeCast S320x3 (m ((c.tc : Thread nD τ).loc main_arg9) : FVec Ideal S320x3x1 .f32) Gen.shapeCasts_S320x3x1_S320x3⟩,
           ⟨S320x3, shapeCast S320x3 (m ((c.tc : Thread nD τ).loc main_arg10) : FVec Ideal S320x3x1 .f32) Gen.shapeCasts_S320x3x1_S320x3⟩,
           ⟨S320x3, shapeCast S320x3 (m ((c.tc : Thread nD τ).loc main_arg11) : FVec Ideal S320x3x1 .f32) Gen.shapeCasts_S320x3x1_S320x3⟩,
           ⟨S320x1, shapeCast S320x1 (m ((c.tc : Thread nD τ).loc main_arg12) : FVec Ideal S320x1x1 .f32) Gen.shapeCasts_S320x1x1_S320x1⟩]
          Gen.concatenates_S320x3_S320x3_S320x3_S320x1_S320x10_d1 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

/-- Row `r` of the packed weights is channel `r`'s weights in reading order. -/
theorem weights_row (c : Dev nD) (r : Fin 320) :
    (fun k : Fin 24 => (V m c main_v21 : S320x24.Idx → EReal) (ix2 r k))
      = Cert.Target.wrow (softplus Gen.bcast_S_S320x3x1 (m ((c.tc : Thread nD τ).loc main_arg1) : FVec Ideal S320x3x1 .f32)) (softplus Gen.bcast_S_S320x3x3 (m ((c.tc : Thread nD τ).loc main_arg2) : FVec Ideal S320x3x3 .f32))
          (softplus Gen.bcast_S_S320x3x3 (m ((c.tc : Thread nD τ).loc main_arg3) : FVec Ideal S320x3x3 .f32)) (softplus Gen.bcast_S_S320x1x3 (m ((c.tc : Thread nD τ).loc main_arg4) : FVec Ideal S320x1x3 .f32)) r := by
  rw [entry_weights]
  funext k
  fin_cases k
  · exact (concat4_piece0 _ _ _ _ _ r _ (0 : Fin 3) (by decide)).trans (flat_apply (by decide) _ _ r (0 : Fin 3) (0 : Fin 1) _ (by decide))
  · exact (concat4_piece0 _ _ _ _ _ r _ (1 : Fin 3) (by decide)).trans (flat_apply (by decide) _ _ r (1 : Fin 3) (0 : Fin 1) _ (by decide))
  · exact (concat4_piece0 _ _ _ _ _ r _ (2 : Fin 3) (by decide)).trans (flat_apply (by decide) _ _ r (2 : Fin 3) (0 : Fin 1) _ (by decide))
  · exact (concat4_piece1 _ _ _ _ _ r _ (0 : Fin 9) (by decide)).trans (flat_apply (by decide) _ _ r (0 : Fin 3) (0 : Fin 3) _ (by decide))
  · exact (concat4_piece1 _ _ _ _ _ r _ (1 : Fin 9) (by decide)).trans (flat_apply (by decide) _ _ r (0 : Fin 3) (1 : Fin 3) _ (by decide))
  · exact (concat4_piece1 _ _ _ _ _ r _ (2 : Fin 9) (by decide)).trans (flat_apply (by decide) _ _ r (0 : Fin 3) (2 : Fin 3) _ (by decide))
  · exact (concat4_piece1 _ _ _ _ _ r _ (3 : Fin 9) (by decide)).trans (flat_apply (by decide) _ _ r (1 : Fin 3) (0 : Fin 3) _ (by decide))
  · exact (concat4_piece1 _ _ _ _ _ r _ (4 : Fin 9) (by decide)).trans (flat_apply (by decide) _ _ r (1 : Fin 3) (1 : Fin 3) _ (by decide))
  · exact (concat4_piece1 _ _ _ _ _ r _ (5 : Fin 9) (by decide)).trans (flat_apply (by decide) _ _ r (1 : Fin 3) (2 : Fin 3) _ (by decide))
  · exact (concat4_piece1 _ _ _ _ _ r _ (6 : Fin 9) (by decide)).trans (flat_apply (by decide) _ _ r (2 : Fin 3) (0 : Fin 3) _ (by decide))
  · exact (concat4_piece1 _ _ _ _ _ r _ (7 : Fin 9) (by decide)).trans (flat_apply (by decide) _ _ r (2 : Fin 3) (1 : Fin 3) _ (by decide))
  · exact (concat4_piece1 _ _ _ _ _ r _ (8 : Fin 9) (by decide)).trans (flat_apply (by decide) _ _ r (2 : Fin 3) (2 : Fin 3) _ (by decide))
  · exact (concat4_piece2 _ _ _ _ _ r _ (0 : Fin 9) (by decide)).trans (flat_apply (by decide) _ _ r (0 : Fin 3) (0 : Fin 3) _ (by decide))
  · exact (concat4_piece2 _ _ _ _ _ r _ (1 : Fin 9) (by decide)).trans (flat_apply (by decide) _ _ r (0 : Fin 3) (1 : Fin 3) _ (by decide))
  · exact (concat4_piece2 _ _ _ _ _ r _ (2 : Fin 9) (by decide)).trans (flat_apply (by decide) _ _ r (0 : Fin 3) (2 : Fin 3) _ (by decide))
  · exact (concat4_piece2 _ _ _ _ _ r _ (3 : Fin 9) (by decide)).trans (flat_apply (by decide) _ _ r (1 : Fin 3) (0 : Fin 3) _ (by decide))
  · exact (concat4_piece2 _ _ _ _ _ r _ (4 : Fin 9) (by decide)).trans (flat_apply (by decide) _ _ r (1 : Fin 3) (1 : Fin 3) _ (by decide))
  · exact (concat4_piece2 _ _ _ _ _ r _ (5 : Fin 9) (by decide)).trans (flat_apply (by decide) _ _ r (1 : Fin 3) (2 : Fin 3) _ (by decide))
  · exact (concat4_piece2 _ _ _ _ _ r _ (6 : Fin 9) (by decide)).trans (flat_apply (by decide) _ _ r (2 : Fin 3) (0 : Fin 3) _ (by decide))
  · exact (concat4_piece2 _ _ _ _ _ r _ (7 : Fin 9) (by decide)).trans (flat_apply (by decide) _ _ r (2 : Fin 3) (1 : Fin 3) _ (by decide))
  · exact (concat4_piece2 _ _ _ _ _ r _ (8 : Fin 9) (by decide)).trans (flat_apply (by decide) _ _ r (2 : Fin 3) (2 : Fin 3) _ (by decide))
  · exact (concat4_piece3 _ _ _ _ _ r _ (0 : Fin 3) (by decide)).trans (flat_apply (by decide) _ _ r (0 : Fin 1) (0 : Fin 3) _ (by decide))
  · exact (concat4_piece3 _ _ _ _ _ r _ (1 : Fin 3) (by decide)).trans (flat_apply (by decide) _ _ r (0 : Fin 1) (1 : Fin 3) _ (by decide))
  · exact (concat4_piece3 _ _ _ _ _ r _ (2 : Fin 3) (by decide)).trans (flat_apply (by decide) _ _ r (0 : Fin 1) (2 : Fin 3) _ (by decide))

/-- Row `r` of the packed gates is channel `r`'s gates in reading order. -/
theorem gates_row (c : Dev nD) (r : Fin 320) :
    (fun k : Fin 10 => (V m c main_v22 : S320x10.Idx → EReal) (ix2 r k))
      = Cert.Target.prow (Host.tanh (F := Ideal) (s := S320x3x1) (φ := .f32) (m ((c.tc : Thread nD τ).loc main_arg5) : FVec Ideal S320x3x1 .f32)) (Host.tanh (F := Ideal) (s := S320x3x1) (φ := .f32) (m ((c.tc : Thread nD τ).loc main_arg6) : FVec Ideal S320x3x1 .f32)) (Host.tanh (F := Ideal) (s := S320x3x1) (φ := .f32) (m ((c.tc : Thread nD τ).loc main_arg7) : FVec Ideal S320x3x1 .f32)) (Host.tanh (F := Ideal) (s := S320x1x1) (φ := .f32) (m ((c.tc : Thread nD τ).loc main_arg8) : FVec Ideal S320x1x1 .f32)) r := by
  rw [entry_gates]
  funext k
  fin_cases k
  · exact (concat4_piece0 _ _ _ _ _ r _ (0 : Fin 3) (by decide)).trans (flat_apply (by decide) _ _ r (0 : Fin 3) (0 : Fin 1) _ (by decide))
  · exact (concat4_piece0 _ _ _ _ _ r _ (1 : Fin 3) (by decide)).trans (flat_apply (by decide) _ _ r (1 : Fin 3) (0 : Fin 1) _ (by decide))
  · exact (concat4_piece0 _ _ _ _ _ r _ (2 : Fin 3) (by decide)).trans (flat_apply (by decide) _ _ r (2 : Fin 3) (0 : Fin 1) _ (by decide))
  · exact (concat4_piece1 _ _ _ _ _ r _ (0 : Fin 3) (by decide)).trans (flat_apply (by decide) _ _ r (0 : Fin 3) (0 : Fin 1) _ (by decide))
  · exact (concat4_piece1 _ _ _ _ _ r _ (1 : Fin 3) (by decide)).trans (flat_apply (by decide) _ _ r (1 : Fin 3) (0 : Fin 1) _ (by decide))
  · exact (concat4_piece1 _ _ _ _ _ r _ (2 : Fin 3) (by decide)).trans (flat_apply (by decide) _ _ r (2 : Fin 3) (0 : Fin 1) _ (by decide))
  · exact (concat4_piece2 _ _ _ _ _ r _ (0 : Fin 3) (by decide)).trans (flat_apply (by decide) _ _ r (0 : Fin 3) (0 : Fin 1) _ (by decide))
  · exact (concat4_piece2 _ _ _ _ _ r _ (1 : Fin 3) (by decide)).trans (flat_apply (by decide) _ _ r (1 : Fin 3) (0 : Fin 1) _ (by decide))
  · exact (concat4_piece2 _ _ _ _ _ r _ (2 : Fin 3) (by decide)).trans (flat_apply (by decide) _ _ r (2 : Fin 3) (0 : Fin 1) _ (by decide))
  · exact (concat4_piece3 _ _ _ _ _ r _ (0 : Fin 1) (by decide)).trans (flat_apply (by decide) _ _ r (0 : Fin 1) (0 : Fin 1) _ (by decide))

/-- Row `r` of the packed biases is channel `r`'s biases in reading order. -/
theorem biases_row (c : Dev nD) (r : Fin 320) :
    (fun k : Fin 10 => (V m c main_v23 : S320x10.Idx → EReal) (ix2 r k))
      = Cert.Target.prow (m ((c.tc : Thread nD τ).loc main_arg9) : FVec Ideal S320x3x1 .f32) (m ((c.tc : Thread nD τ).loc main_arg10) : FVec Ideal S320x3x1 .f32) (m ((c.tc : Thread nD τ).loc main_arg11) : FVec Ideal S320x3x1 .f32) (m ((c.tc : Thread nD τ).loc main_arg12) : FVec Ideal S320x1x1 .f32) r := by
  rw [entry_biases]
  funext k
  fin_cases k
  · exact (concat4_piece0 _ _ _ _ _ r _ (0 : Fin 3) (by decide)).trans (flat_apply (by decide) _ _ r (0 : Fin 3) (0 : Fin 1) _ (by decide))
  · exact (concat4_piece0 _ _ _ _ _ r _ (1 : Fin 3) (by decide)).trans (flat_apply (by decide) _ _ r (1 : Fin 3) (0 : Fin 1) _ (by decide))
  · exact (concat4_piece0 _ _ _ _ _ r _ (2 : Fin 3) (by decide)).trans (flat_apply (by decide) _ _ r (2 : Fin 3) (0 : Fin 1) _ (by decide))
  · exact (concat4_piece1 _ _ _ _ _ r _ (0 : Fin 3) (by decide)).trans (flat_apply (by decide) _ _ r (0 : Fin 3) (0 : Fin 1) _ (by decide))
  · exact (concat4_piece1 _ _ _ _ _ r _ (1 : Fin 3) (by decide)).trans (flat_apply (by decide) _ _ r (1 : Fin 3) (0 : Fin 1) _ (by decide))
  · exact (concat4_piece1 _ _ _ _ _ r _ (2 : Fin 3) (by decide)).trans (flat_apply (by decide) _ _ r (2 : Fin 3) (0 : Fin 1) _ (by decide))
  · exact (concat4_piece2 _ _ _ _ _ r _ (0 : Fin 3) (by decide)).trans (flat_apply (by decide) _ _ r (0 : Fin 3) (0 : Fin 1) _ (by decide))
  · exact (concat4_piece2 _ _ _ _ _ r _ (1 : Fin 3) (by decide)).trans (flat_apply (by decide) _ _ r (1 : Fin 3) (0 : Fin 1) _ (by decide))
  · exact (concat4_piece2 _ _ _ _ _ r _ (2 : Fin 3) (by decide)).trans (flat_apply (by decide) _ _ r (2 : Fin 3) (0 : Fin 1) _ (by decide))
  · exact (concat4_piece3 _ _ _ _ _ r _ (0 : Fin 1) (by decide)).trans (flat_apply (by decide) _ _ r (0 : Fin 1) (0 : Fin 1) _ (by decide))

end Cert.KernelIdeal.Tables

end
-- ==== Proof.KernelValue.lean ====
import proofs.«122539_j4982162063467_2_alg».proof.Proof.IdealFrame
import proofs.«122539_j4982162063467_2_alg».proof.Proof.Blocks
import proofs.«122539_j4982162063467_2_alg».proof.Proof.Tables
import Idealize.ShloMosaic.Lib.ValueIdx
import Idealize.ShloMosaic.Lib.Pipeline.Value
import Idealize.ShloMosaic.Lib.StableHlo.Run

/-!
The kernel program's result as one array.

After the region the output array of the pipeline is the likelihood array over the flattened input and the
packed tables; the one line after the region splits its last axis in two. Read at `[n, ch, h, w]`, the split
array is the flat one at `[n, ch, h·32 + w]`: row `ch` of each table is channel `ch`'s parameters in reading
order, and the flattened input there is the input element at `[n, ch, h, w]`. So the program ends with
`Cert.Target.result` of its launch contents in the result buffer, its arguments unchanged.
-/

set_option maxRecDepth 16384

noncomputable section

namespace Cert.KernelIdeal.KernelValue

open Idealize.ShloMosaic Idealize.ShloMosaic.TcCoe Idealize.ShloMosaic.ValueIdx Idealize.ShloMosaic.StableHlo
open Idealize.SL Idealize.SL.Sem
open Idealize.ShloMosaic.Pipeline (Dat)
open Cert.KernelIdeal Cert.KernelIdeal.Gen Cert.KernelIdeal.Frm Cert.KernelIdeal.Blocks Cert.KernelIdeal.Tables

variable (m : (ℓ : Loc nD τ sig) → Buf (Elt Ideal) ℓ) (ρ : Dev nD → PrngReg)

/-- The line after the region reshapes the region's output array: the program's result is that array with its
    last axis split in two. -/
theorem tail_value (c : Dev nD) :
    Pipeline.afterTail₀ cfgs (dats m) 0 (V0 m) [hostOps1] c main_v25
      = shapeCast S16x320x32x32 ((dats m 0 c).arrAt 4 cfg0.N) Gen.shapeCasts_S16x320x1024_S16x320x32x32 := by
  unfold Pipeline.afterTail₀
  show StableHlo.after hostOps1 _ (Proc.devRef .tc main_v25) = _
  after_results
  have h : Pipeline.withArrays (cfgs 0).spec c (V0 m c) (fun w => (dats m 0 c).arrAt w (cfgs 0).N)
      (Proc.devRef .tc main_v24) = (dats m 0 c).arrAt 4 cfg0.N :=
    Pipeline.withArrays_arr spec0 launch0.win.arr_inj c _ _ 4
  rw [h]
  rfl

/-- The reshaped likelihood array is the target array: the element at `[n, ch, h, w]` of the reshaped array is the
    flat array's element at `[n, ch, h·32 + w]`, whose table rows are channel `ch`'s parameters in reading order and
    whose input element is the input at `[n, ch, h, w]`. -/
theorem result_eq (c : Dev nD) :
    shapeCast S16x320x32x32 (arrayFn (V m c main_v0) (V m c main_v21) (V m c main_v22) (V m c main_v23))
        Gen.shapeCasts_S16x320x1024_S16x320x32x32
      = Cert.Target.result (m ((c.tc : Thread nD τ).loc main_arg0) : FVec Ideal S16x320x32x32 .f32)
        (softplus Gen.bcast_S_S320x3x1 (m ((c.tc : Thread nD τ).loc main_arg1) : FVec Ideal S320x3x1 .f32))
        (softplus Gen.bcast_S_S320x3x3 (m ((c.tc : Thread nD τ).loc main_arg2) : FVec Ideal S320x3x3 .f32))
        (softplus Gen.bcast_S_S320x3x3 (m ((c.tc : Thread nD τ).loc main_arg3) : FVec Ideal S320x3x3 .f32))
        (softplus Gen.bcast_S_S320x1x3 (m ((c.tc : Thread nD τ).loc main_arg4) : FVec Ideal S320x1x3 .f32))
        (Host.tanh (F := Ideal) (s := S320x3x1) (φ := .f32) (m ((c.tc : Thread nD τ).loc main_arg5) : FVec Ideal S320x3x1 .f32))
        (Host.tanh (F := Ideal) (s := S320x3x1) (φ := .f32) (m ((c.tc : Thread nD τ).loc main_arg6) : FVec Ideal S320x3x1 .f32))
        (Host.tanh (F := Ideal) (s := S320x3x1) (φ := .f32) (m ((c.tc : Thread nD τ).loc main_arg7) : FVec Ideal S320x3x1 .f32))
        (Host.tanh (F := Ideal) (s := S320x1x1) (φ := .f32) (m ((c.tc : Thread nD τ).loc main_arg8) : FVec Ideal S320x1x1 .f32))
        (m ((c.tc : Thread nD τ).loc main_arg9) : FVec Ideal S320x3x1 .f32) (m ((c.tc : Thread nD τ).loc main_arg10) : FVec Ideal S320x3x1 .f32)
        (m ((c.tc : Thread nD τ).loc main_arg11) : FVec Ideal S320x3x1 .f32) (m ((c.tc : Thread nD τ).loc main_arg12) : FVec Ideal S320x1x1 .f32) := by
  funext i
  obtain ⟨n, ch, h, w, rfl⟩ : ∃ (n : Fin 16) (ch : Fin 320) (h w : Fin 32), i = ix4 n ch h w :=
    ⟨i 0, i 1, i 2, i 3, eq_ix4 i⟩
  have hn := n.isLt; have hc := ch.isLt; have hh := h.isLt; have hw := w.isLt
  have hq : h.val * 32 + w.val < 1024 := by omega
  rw [shapeCast_apply _ Gen.shapeCasts_S16x320x1024_S16x320x32x32 (ix4 n ch h w) (ix3 n ch ⟨h.val * 32 + w.val, hq⟩)
    (by
      rw [Shape.rowMajor_val_three, Shape.rowMajor_val_four]
      show (n.val * 320 + ch.val) * 1024 + (h.val * 32 + w.val) = ((n.val * 320 + ch.val) * 32 + h.val) * 32 + w.val
      omega)]
  show Cert.Spec.likelihood (fun k : Fin 24 => (V m c main_v21 : S320x24.Idx → EReal) (ix2 ch k))
      (fun k : Fin 10 => (V m c main_v22 : S320x10.Idx → EReal) (ix2 ch k))
      (fun k : Fin 10 => (V m c main_v23 : S320x10.Idx → EReal) (ix2 ch k))
      ((V m c main_v0 : S16x320x1024.Idx → EReal) (ix3 n ch ⟨h.val * 32 + w.val, hq⟩)) = _
  rw [weights_row m c ch, gates_row m c ch, biases_row m c ch, entry_input m c,
    shapeCast_apply _ Gen.shapeCasts_S16x320x32x32_S16x320x1024 (ix3 n ch ⟨h.val * 32 + w.val, hq⟩) (ix4 n ch h w)
      (by
        rw [Shape.rowMajor_val_three, Shape.rowMajor_val_four]
        show ((n.val * 320 + ch.val) * 32 + h.val) * 32 + w.val = (n.val * 320 + ch.val) * 1024 + (h.val * 32 + w.val)
        omega)]
  rfl

/-- Every weakly fair execution of the program terminates without fault; afterwards the result buffer holds the
    target array of the launch contents, and the thirteen arguments are unchanged. -/
theorem run : θ_run defs (onTc (τ := τ) (main (F := Ideal))) ⟨m, fun _ => 0, ρ⟩ (fun r => ∀ c : Dev nD,
      r.2.mem ((c.tc : Thread nD τ).loc main_v25) = Cert.Target.result (m ((c.tc : Thread nD τ).loc main_arg0) : FVec Ideal S16x320x32x32 .f32)
        (softplus Gen.bcast_S_S320x3x1 (m ((c.tc : Thread nD τ).loc main_arg1) : FVec Ideal S320x3x1 .f32))
        (softplus Gen.bcast_S_S320x3x3 (m ((c.tc : Thread nD τ).loc main_arg2) : FVec Ideal S320x3x3 .f32))
        (softplus Gen.bcast_S_S320x3x3 (m ((c.tc : Thread nD τ).loc main_arg3) : FVec Ideal S320x3x3 .f32))
        (softplus Gen.bcast_S_S320x1x3 (m ((c.tc : Thread nD τ).loc main_arg4) : FVec Ideal S320x1x3 .f32))
        (Host.tanh (F := Ideal) (s := S320x3x1) (φ := .f32) (m ((c.tc : Thread nD τ).loc main_arg5) : FVec Ideal S320x3x1 .f32))
        (Host.tanh (F := Ideal) (s := S320x3x1) (φ := .f32) (m ((c.tc : Thread nD τ).loc main_arg6) : FVec Ideal S320x3x1 .f32))
        (Host.tanh (F := Ideal) (s := S320x3x1) (φ := .f32) (m ((c.tc : Thread nD τ).loc main_arg7) : FVec Ideal S320x3x1 .f32))
        (Host.tanh (F := Ideal) (s := S320x1x1) (φ := .f32) (m ((c.tc : Thread nD τ).loc main_arg8) : FVec Ideal S320x1x1 .f32))
        (m ((c.tc : Thread nD τ).loc main_arg9) : FVec Ideal S320x3x1 .f32) (m ((c.tc : Thread nD τ).loc main_arg10) : FVec Ideal S320x3x1 .f32)
        (m ((c.tc : Thread nD τ).loc main_arg11) : FVec Ideal S320x3x1 .f32) (m ((c.tc : Thread nD τ).loc main_arg12) : FVec Ideal S320x1x1 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(((h c).2 main_v25 (Pipeline.mem_restRefs_of main_v25 (by decide) (by decide))).trans
      (tail_value m c)).trans (by rw [final_array m c]; exact result_eq m c),
    ((h c).2 main_arg0 (Pipeline.mem_restRefs_of main_arg0 (by decide) (by decide))).trans (exit_arg0 m (dats m) c),
    ((h c).2 main_arg1 (Pipeline.mem_restRefs_of main_arg1 (by decide) (by decide))).trans (exit_arg1 m (dats m) c),
    ((h c).2 main_arg2 (Pipeline.mem_restRefs_of main_arg2 (by decide) (by decide))).trans (exit_arg2 m (dats m) c),
    ((h c).2 main_arg3 (Pipeline.mem_restRefs_of main_arg3 (by decide) (by decide))).trans (exit_arg3 m (dats m) c),
    ((h c).2 main_arg4 (Pipeline.mem_restRefs_of main_arg4 (by decide) (by decide))).trans (exit_arg4 m (dats m) c),
    ((h c).2 main_arg5 (Pipeline.mem_restRefs_of main_arg5 (by decide) (by decide))).trans (exit_arg5 m (dats m) c),
    ((h c).2 main_arg6 (Pipeline.mem_restRefs_of main_arg6 (by decide) (by decide))).trans (exit_arg6 m (dats m) c),
    ((h c).2 main_arg7 (Pipeline.mem_restRefs_of main_arg7 (by decide) (by decide))).trans (exit_arg7 m (dats m) c),
    ((h c).2 main_arg8 (Pipeline.mem_restRefs_of main_arg8 (by decide) (by decide))).trans (exit_arg8 m (dats m) c),
    ((h c).2 main_arg9 (Pipeline.mem_restRefs_of main_arg9 (by decide) (by decide))).trans (exit_arg9 m (dats m) c),
    ((h c).2 main_arg10 (Pipeline.mem_restRefs_of main_arg10 (by decide) (by decide))).trans (exit_arg10 m (dats m) c),
    ((h c).2 main_arg11 (Pipeline.mem_restRefs_of main_arg11 (by decide) (by decide))).trans (exit_arg11 m (dats m) c),
    ((h c).2 main_arg12 (Pipeline.mem_restRefs_of main_arg12 (by decide) (by decide))).trans (exit_arg12 m (dats m) c)⟩) (run_main m ρ)

end Cert.KernelIdeal.KernelValue

end
-- ==== Proof.RefValueA.lean ====
import proofs.«122539_j4982162063467_2_alg».proof.Proof.Gen.ReferenceIdeal.Read
import proofs.«122539_j4982162063467_2_alg».proof.Proof.Target
import Idealize.ShloMosaic.Lib.IdealHost

/-!
The first branch of the reference (the network evaluated at the input plus one half), read layer by layer.

Each layer's result at channel `c`, unit `i`, position `m` is one unit of `Cert.Spec` applied to the previous
layer's values at `(c, ·, m)`; composing the four layers gives the channel's network `Cert.Spec.net` at the
shifted input value, with the channel's parameters in the reading order of `Cert.Target.wrow` and `prow`.
-/

noncomputable section

namespace Cert.RefValue

open Cert.ReferenceIdeal Cert.ReferenceIdeal.Read Idealize.ShloMosaic Idealize.ShloMosaic.ValueIdx

variable (x0 : (⟨S16x320x32x32, .f32⟩ : BufTy).Contents (Elt Ideal))
  (x1 : (⟨S320x3x1, .f32⟩ : BufTy).Contents (Elt Ideal))
  (x2 x3 : (⟨S320x3x3, .f32⟩ : BufTy).Contents (Elt Ideal))
  (x4 : (⟨S320x1x3, .f32⟩ : BufTy).Contents (Elt Ideal))
  (x5 x6 x7 : (⟨S320x3x1, .f32⟩ : BufTy).Contents (Elt Ideal))
  (x8 : (⟨S320x1x1, .f32⟩ : BufTy).Contents (Elt Ideal))
  (x9 x10 x11 : (⟨S320x3x1, .f32⟩ : BufTy).Contents (Elt Ideal))
  (x12 : (⟨S320x1x1, .f32⟩ : BufTy).Contents (Elt Ideal))

/-- First layer: each of the three units reads the single input value of its channel and position. -/
theorem up1 (c : Fin 320) (i : Fin 3) (m : Fin 16384) :
    val_main_v12 (F := Ideal) x0 x1 x5 x9 (ix3 c i m)
      = Cert.Spec.unit1 (val_main_v4 (F := Ideal) x1 (ix3 c i 0)) (x9 (ix3 c i 0)) (val_main_v8 (F := Ideal) x5 (ix3 c i 0))
          (val_main_v3 (F := Ideal) x0 (ix3 c 0 m)) := by
  have el : lidx_main_v5 (ix3 c i m) 0 = ix3 c i 0 := by
    funext a; match a with | ⟨0, _⟩ => rfl | ⟨1, _⟩ => rfl | ⟨2, _⟩ => rfl
  have er : ridx_main_v5 (ix3 c i m) 0 = ix3 c 0 m := by
    funext a; match a with | ⟨0, _⟩ => rfl | ⟨1, _⟩ => rfl | ⟨2, _⟩ => rfl
  have eb : idx_main_v6 (ix3 c i m) = ix3 c i 0 := by
    funext a; match a with | ⟨0, _⟩ => rfl | ⟨1, _⟩ => rfl | ⟨2, _⟩ => rfl
  have ea : idx_main_v10 (ix3 c i m) = ix3 c i 0 := by
    funext a; match a with | ⟨0, _⟩ => rfl | ⟨1, _⟩ => rfl | ⟨2, _⟩ => rfl
  rw [val_main_v12_apply, val_main_v11_apply, val_main_v10_apply, val_main_v9_apply,
    val_main_v7_apply, val_main_v6_apply, val_main_v5_apply, Fin.sum_univ_one, el, er, eb, ea]
  simp only [Ideal.addf_def, Ideal.mulf_def, Ideal.hostUnary_tanh_def]
  rfl

/-- A middle layer: each of the three units reads the three values of the previous layer at its channel and position. -/
theorem up2 (c : Fin 320) (i : Fin 3) (m : Fin 16384) :
    val_main_v21 (F := Ideal) x0 x1 x2 x5 x6 x9 x10 (ix3 c i m)
      = Cert.Spec.unit3 (val_main_v13 (F := Ideal) x2 (ix3 c i 0)) (val_main_v13 (F := Ideal) x2 (ix3 c i 1)) (val_main_v13 (F := Ideal) x2 (ix3 c i 2))
          (x10 (ix3 c i 0)) (val_main_v17 (F := Ideal) x6 (ix3 c i 0))
          (val_main_v12 (F := Ideal) x0 x1 x5 x9 (ix3 c 0 m)) (val_main_v12 (F := Ideal) x0 x1 x5 x9 (ix3 c 1 m)) (val_main_v12 (F := Ideal) x0 x1 x5 x9 (ix3 c 2 m)) := by
  have el : ∀ k : Fin 3, lidx_main_v14 (ix3 c i m) k = ix3 c i k := fun k => by
    funext a; match a with | ⟨0, _⟩ => rfl | ⟨1, _⟩ => rfl | ⟨2, _⟩ => rfl
  have er : ∀ k : Fin 3, ridx_main_v14 (ix3 c i m) k = ix3 c k m := fun k => by
    funext a; match a with | ⟨0, _⟩ => rfl | ⟨1, _⟩ => rfl | ⟨2, _⟩ => rfl
  have eb : idx_main_v15 (ix3 c i m) = ix3 c i 0 := by
    funext a; match a with | ⟨0, _⟩ => rfl | ⟨1, _⟩ => rfl | ⟨2, _⟩ => rfl
  have ea : idx_main_v19 (ix3 c i m) = ix3 c i 0 := by
    funext a; match a with | ⟨0, _⟩ => rfl | ⟨1, _⟩ => rfl | ⟨2, _⟩ => rfl
  rw [val_main_v21_apply, val_main_v20_apply, val_main_v19_apply, val_main_v18_apply,
    val_main_v16_apply, val_main_v15_apply, val_main_v14_apply, Fin.sum_univ_three,
    el 0, el 1, el 2, er 0, er 1, er 2, eb, ea]
  simp only [Ideal.addf_def, Ideal.mulf_def, Ideal.hostUnary_tanh_def]
  rfl

/-- A middle layer: each of the three units reads the three values of the previous layer at its channel and position. -/
theorem up3 (c : Fin 320) (i : Fin 3) (m : Fin 16384) :
    val_main_v30 (F := Ideal) x0 x1 x2 x3 x5 x6 x7 x9 x10 x11 (ix3 c i m)
      = Cert.Spec.unit3 (val_main_v22 (F := Ideal) x3 (ix3 c i 0)) (val_main_v22 (F := Ideal) x3 (ix3 c i 1)) (val_main_v22 (F := Ideal) x3 (ix3 c i 2))
          (x11 (ix3 c i 0)) (val_main_v26 (F := Ideal) x7 (ix3 c i 0))
          (val_main_v21 (F := Ideal) x0 x1 x2 x5 x6 x9 x10 (ix3 c 0 m)) (val_main_v21 (F := Ideal) x0 x1 x2 x5 x6 x9 x10 (ix3 c 1 m)) (val_main_v21 (F := Ideal) x0 x1 x2 x5 x6 x9 x10 (ix3 c 2 m)) := by
  have el : ∀ k : Fin 3, lidx_main_v23 (ix3 c i m) k = ix3 c i k := fun k => by
    funext a; match a with | ⟨0, _⟩ => rfl | ⟨1, _⟩ => rfl | ⟨2, _⟩ => rfl
  have er : ∀ k : Fin 3, ridx_main_v23 (ix3 c i m) k = ix3 c k m := fun k => by
    funext a; match a with | ⟨0, _⟩ => rfl | ⟨1, _⟩ => rfl | ⟨2, _⟩ => rfl
  have eb : idx_main_v24 (ix3 c i m) = ix3 c i 0 := by
    funext a; match a with | ⟨0, _⟩ => rfl | ⟨1, _⟩ => rfl | ⟨2, _⟩ => rfl
  have ea : idx_main_v28 (ix3 c i m) = ix3 c i 0 := by
    funext a; match a with | ⟨0, _⟩ => rfl | ⟨1, _⟩ => rfl | ⟨2, _⟩ => rfl
  rw [val_main_v30_apply, val_main_v29_apply, val_main_v28_apply, val_main_v27_apply,
    val_main_v25_apply, val_main_v24_apply, val_main_v23_apply, Fin.sum_univ_three,
    el 0, el 1, el 2, er 0, er 1, er 2, eb, ea]
  simp only [Ideal.addf_def, Ideal.mulf_def, Ideal.hostUnary_tanh_def]
  rfl

/-- Last layer: the single unit reads the three values of the previous layer at its channel and position. -/
theorem up4 (c : Fin 320) (m : Fin 16384) :
    val_main_v39 (F := Ideal) x0 x1 x2 x3 x4 x5 x6 x7 x8 x9 x10 x11 x12 (ix3 c 0 m)
      = Cert.Spec.unit3 (val_main_v31 (F := Ideal) x4 (ix3 c 0 0)) (val_main_v31 (F := Ideal) x4 (ix3 c 0 1)) (val_main_v31 (F := Ideal) x4 (ix3 c 0 2))
          (x12 (ix3 c 0 0)) (val_main_v35 (F := Ideal) x8 (ix3 c 0 0))
          (val_main_v30 (F := Ideal) x0 x1 x2 x3 x5 x6 x7 x9 x10 x11 (ix3 c 0 m)) (val_main_v30 (F := Ideal) x0 x1 x2 x3 x5 x6 x7 x9 x10 x11 (ix3 c 1 m)) (val_main_v30 (F := Ideal) x0 x1 x2 x3 x5 x6 x7 x9 x10 x11 (ix3 c 2 m)) := by
  have el : ∀ k : Fin 3, lidx_main_v32 (ix3 c 0 m) k = ix3 c 0 k := fun k => by
    funext a; match a with | ⟨0, _⟩ => rfl | ⟨1, _⟩ => rfl | ⟨2, _⟩ => rfl
  have er : ∀ k : Fin 3, ridx_main_v32 (ix3 c 0 m) k = ix3 c k m := fun k => by
    funext a; match a with | ⟨0, _⟩ => rfl | ⟨1, _⟩ => rfl | ⟨2, _⟩ => rfl
  have eb : idx_main_v33 (ix3 c 0 m) = ix3 c 0 0 := by
    funext a; match a with | ⟨0, _⟩ => rfl | ⟨1, _⟩ => rfl | ⟨2, _⟩ => rfl
  have ea : idx_main_v37 (ix3 c 0 m) = ix3 c 0 0 := by
    funext a; match a with | ⟨0, _⟩ => rfl | ⟨1, _⟩ => rfl | ⟨2, _⟩ => rfl
  rw [val_main_v39_apply, val_main_v38_apply, val_main_v37_apply, val_main_v36_apply,
    val_main_v34_apply, val_main_v33_apply, val_main_v32_apply, Fin.sum_univ_three,
    el 0, el 1, el 2, er 0, er 1, er 2, eb, ea]
  simp only [Ideal.addf_def, Ideal.mulf_def, Ideal.hostUnary_tanh_def]
  rfl

/-- The first branch's last stage at channel `c`, position `m` is the channel's network at the shifted input. -/
theorem up_net (c : Fin 320) (m : Fin 16384) :
    val_main_v39 (F := Ideal) x0 x1 x2 x3 x4 x5 x6 x7 x8 x9 x10 x11 x12 (ix3 c 0 m)
      = Cert.Spec.net (Cert.Target.wrow (val_main_v4 (F := Ideal) x1) (val_main_v13 (F := Ideal) x2) (val_main_v22 (F := Ideal) x3)
          (val_main_v31 (F := Ideal) x4) c)
        (Cert.Target.prow (val_main_v8 (F := Ideal) x5) (val_main_v17 (F := Ideal) x6) (val_main_v26 (F := Ideal) x7)
          (val_main_v35 (F := Ideal) x8) c)
        (Cert.Target.prow x9 x10 x11 x12 c)
        (val_main_v3 (F := Ideal) x0 (ix3 c 0 m)) := by
  rw [up4, up3, up3, up3, up2, up2, up2, up1, up1, up1]
  rfl

end Cert.RefValue

end
-- ==== Proof.RefValueB.lean ====
import proofs.«122539_j4982162063467_2_alg».proof.Proof.Gen.ReferenceIdeal.Read
import proofs.«122539_j4982162063467_2_alg».proof.Proof.Target
import Idealize.ShloMosaic.Lib.IdealHost

/-!
The second branch of the reference (the network evaluated at the input minus one half), read layer by layer.

The program prepares the weights and gates a second time, by the same operations on the same arguments, so the
second copies equal the first ones; with that, the four layers compose to the same `Cert.Spec.net` as in the
first branch, at the other shifted input value.
-/

noncomputable section

namespace Cert.RefValue

open Cert.ReferenceIdeal Cert.ReferenceIdeal.Read Idealize.ShloMosaic Idealize.ShloMosaic.ValueIdx

variable (x0 : (⟨S16x320x32x32, .f32⟩ : BufTy).Contents (Elt Ideal))
  (x1 : (⟨S320x3x1, .f32⟩ : BufTy).Contents (Elt Ideal))
  (x2 x3 : (⟨S320x3x3, .f32⟩ : BufTy).Contents (Elt Ideal))
  (x4 : (⟨S320x1x3, .f32⟩ : BufTy).Contents (Elt Ideal))
  (x5 x6 x7 : (⟨S320x3x1, .f32⟩ : BufTy).Contents (Elt Ideal))
  (x8 : (⟨S320x1x1, .f32⟩ : BufTy).Contents (Elt Ideal))
  (x9 x10 x11 : (⟨S320x3x1, .f32⟩ : BufTy).Contents (Elt Ideal))
  (x12 : (⟨S320x1x1, .f32⟩ : BufTy).Contents (Elt Ideal))

/-! The second branch prepares its weights and gates again, by the same operations on the same arguments. -/
theorem v42_eq : val_main_v42 (F := Ideal) x1 = val_main_v4 (F := Ideal) x1 := rfl
theorem v51_eq : val_main_v51 (F := Ideal) x2 = val_main_v13 (F := Ideal) x2 := rfl
theorem v60_eq : val_main_v60 (F := Ideal) x3 = val_main_v22 (F := Ideal) x3 := rfl
theorem v69_eq : val_main_v69 (F := Ideal) x4 = val_main_v31 (F := Ideal) x4 := rfl
theorem v46_eq : val_main_v46 (F := Ideal) x5 = val_main_v8 (F := Ideal) x5 := rfl
theorem v55_eq : val_main_v55 (F := Ideal) x6 = val_main_v17 (F := Ideal) x6 := rfl
theorem v64_eq : val_main_v64 (F := Ideal) x7 = val_main_v26 (F := Ideal) x7 := rfl
theorem v73_eq : val_main_v73 (F := Ideal) x8 = val_main_v35 (F := Ideal) x8 := rfl

/-- First layer: each of the three units reads the single input value of its channel and position. -/
theorem lo1 (c : Fin 320) (i : Fin 3) (m : Fin 16384) :
    val_main_v50 (F := Ideal) x0 x1 x5 x9 (ix3 c i m)
      = Cert.Spec.unit1 (val_main_v42 (F := Ideal) x1 (ix3 c i 0)) (x9 (ix3 c i 0)) (val_main_v46 (F := Ideal) x5 (ix3 c i 0))
          (val_main_v41 (F := Ideal) x0 (ix3 c 0 m)) := by
  have el : lidx_main_v43 (ix3 c i m) 0 = ix3 c i 0 := by
    funext a; match a with | ⟨0, _⟩ => rfl | ⟨1, _⟩ => rfl | ⟨2, _⟩ => rfl
  have er : ridx_main_v43 (ix3 c i m) 0 = ix3 c 0 m := by
    funext a; match a with | ⟨0, _⟩ => rfl | ⟨1, _⟩ => rfl | ⟨2, _⟩ => rfl
  have eb : idx_main_v44 (ix3 c i m) = ix3 c i 0 := by
    funext a; match a with | ⟨0, _⟩ => rfl | ⟨1, _⟩ => rfl | ⟨2, _⟩ => rfl
  have ea : idx_main_v48 (ix3 c i m) = ix3 c i 0 := by
    funext a; match a with | ⟨0, _⟩ => rfl | ⟨1, _⟩ => rfl | ⟨2, _⟩ => rfl
  rw [val_main_v50_apply, val_main_v49_apply, val_main_v48_apply, val_main_v47_apply,
    val_main_v45_apply, val_main_v44_apply, val_main_v43_apply, Fin.sum_univ_one, el, er, eb, ea]
  simp only [Ideal.addf_def, Ideal.mulf_def, Ideal.hostUnary_tanh_def]
  rfl

/-- A middle layer: each of the three units reads the three values of the previous layer at its channel and position. -/
theorem lo2 (c : Fin 320) (i : Fin 3) (m : Fin 16384) :
    val_main_v59 (F := Ideal) x0 x1 x2 x5 x6 x9 x10 (ix3 c i m)
      = Cert.Spec.unit3 (val_main_v51 (F := Ideal) x2 (ix3 c i 0)) (val_main_v51 (F := Ideal) x2 (ix3 c i 1)) (val_main_v51 (F := Ideal) x2 (ix3 c i 2))
          (x10 (ix3 c i 0)) (val_main_v55 (F := Ideal) x6 (ix3 c i 0))
          (val_main_v50 (F := Ideal) x0 x1 x5 x9 (ix3 c 0 m)) (val_main_v50 (F := Ideal) x0 x1 x5 x9 (ix3 c 1 m)) (val_main_v50 (F := Ideal) x0 x1 x5 x9 (ix3 c 2 m)) := by
  have el : ∀ k : Fin 3, lidx_main_v52 (ix3 c i m) k = ix3 c i k := fun k => by
    funext a; match a with | ⟨0, _⟩ => rfl | ⟨1, _⟩ => rfl | ⟨2, _⟩ => rfl
  have er : ∀ k : Fin 3, ridx_main_v52 (ix3 c i m) k = ix3 c k m := fun k => by
    funext a; match a with | ⟨0, _⟩ => rfl | ⟨1, _⟩ => rfl | ⟨2, _⟩ => rfl
  have eb : idx_main_v53 (ix3 c i m) = ix3 c i 0 := by
    funext a; match a with | ⟨0, _⟩ => rfl | ⟨1, _⟩ => rfl | ⟨2, _⟩ => rfl
  have ea : idx_main_v57 (ix3 c i m) = ix3 c i 0 := by
    funext a; match a with | ⟨0, _⟩ => rfl | ⟨1, _⟩ => rfl | ⟨2, _⟩ => rfl
  rw [val_main_v59_apply, val_main_v58_apply, val_main_v57_apply, val_main_v56_apply,
    val_main_v54_apply, val_main_v53_apply, val_main_v52_apply, Fin.sum_univ_three,
    el 0, el 1, el 2, er 0, er 1, er 2, eb, ea]
  simp only [Ideal.addf_def, Ideal.mulf_def, Ideal.hostUnary_tanh_def]
  rfl

/-- A middle layer: each of the three units reads the three values of the previous layer at its channel and position. -/
theorem lo3 (c : Fin 320) (i : Fin 3) (m : Fin 16384) :
    val_main_v68 (F := Ideal) x0 x1 x2 x3 x5 x6 x7 x9 x10 x11 (ix3 c i m)
      = Cert.Spec.unit3 (val_main_v60 (F := Ideal) x3 (ix3 c i 0)) (val_main_v60 (F := Ideal) x3 (ix3 c i 1)) (val_main_v60 (F := Ideal) x3 (ix3 c i 2))
          (x11 (ix3 c i 0)) (val_main_v64 (F := Ideal) x7 (ix3 c i 0))
          (val_main_v59 (F := Ideal) x0 x1 x2 x5 x6 x9 x10 (ix3 c 0 m)) (val_main_v59 (F := Ideal) x0 x1 x2 x5 x6 x9 x10 (ix3 c 1 m)) (val_main_v59 (F := Ideal) x0 x1 x2 x5 x6 x9 x10 (ix3 c 2 m)) := by
  have el : ∀ k : Fin 3, lidx_main_v61 (ix3 c i m) k = ix3 c i k := fun k => by
    funext a; match a with | ⟨0, _⟩ => rfl | ⟨1, _⟩ => rfl | ⟨2, _⟩ => rfl
  have er : ∀ k : Fin 3, ridx_main_v61 (ix3 c i m) k = ix3 c k m := fun k => by
    funext a; match a with | ⟨0, _⟩ => rfl | ⟨1, _⟩ => rfl | ⟨2, _⟩ => rfl
  have eb : idx_main_v62 (ix3 c i m) = ix3 c i 0 := by
    funext a; match a with | ⟨0, _⟩ => rfl | ⟨1, _⟩ => rfl | ⟨2, _⟩ => rfl
  have ea : idx_main_v66 (ix3 c i m) = ix3 c i 0 := by
    funext a; match a with | ⟨0, _⟩ => rfl | ⟨1, _⟩ => rfl | ⟨2, _⟩ => rfl
  rw [val_main_v68_apply, val_main_v67_apply, val_main_v66_apply, val_main_v65_apply,
    val_main_v63_apply, val_main_v62_apply, val_main_v61_apply, Fin.sum_univ_three,
    el 0, el 1, el 2, er 0, er 1, er 2, eb, ea]
  simp only [Ideal.addf_def, Ideal.mulf_def, Ideal.hostUnary_tanh_def]
  rfl

/-- Last layer: the single unit reads the three values of the previous layer at its channel and position. -/
theorem lo4 (c : Fin 320) (m : Fin 16384) :
    val_main_v77 (F := Ideal) x0 x1 x2 x3 x4 x5 x6 x7 x8 x9 x10 x11 x12 (ix3 c 0 m)
      = Cert.Spec.unit3 (val_main_v69 (F := Ideal) x4 (ix3 c 0 0)) (val_main_v69 (F := Ideal) x4 (ix3 c 0 1)) (val_main_v69 (F := Ideal) x4 (ix3 c 0 2))
          (x12 (ix3 c 0 0)) (val_main_v73 (F := Ideal) x8 (ix3 c 0 0))
          (val_main_v68 (F := Ideal) x0 x1 x2 x3 x5 x6 x7 x9 x10 x11 (ix3 c 0 m)) (val_main_v68 (F := Ideal) x0 x1 x2 x3 x5 x6 x7 x9 x10 x11 (ix3 c 1 m)) (val_main_v68 (F := Ideal) x0 x1 x2 x3 x5 x6 x7 x9 x10 x11 (ix3 c 2 m)) := by
  have el : ∀ k : Fin 3, lidx_main_v70 (ix3 c 0 m) k = ix3 c 0 k := fun k => by
    funext a; match a with | ⟨0, _⟩ => rfl | ⟨1, _⟩ => rfl | ⟨2, _⟩ => rfl
  have er : ∀ k : Fin 3, ridx_main_v70 (ix3 c 0 m) k = ix3 c k m := fun k => by
    funext a; match a with | ⟨0, _⟩ => rfl | ⟨1, _⟩ => rfl | ⟨2, _⟩ => rfl
  have eb : idx_main_v71 (ix3 c 0 m) = ix3 c 0 0 := by
    funext a; match a with | ⟨0, _⟩ => rfl | ⟨1, _⟩ => rfl | ⟨2, _⟩ => rfl
  have ea : idx_main_v75 (ix3 c 0 m) = ix3 c 0 0 := by
    funext a; match a with | ⟨0, _⟩ => rfl | ⟨1, _⟩ => rfl | ⟨2, _⟩ => rfl
  rw [val_main_v77_apply, val_main_v76_apply, val_main_v75_apply, val_main_v74_apply,
    val_main_v72_apply, val_main_v71_apply, val_main_v70_apply, Fin.sum_univ_three,
    el 0, el 1, el 2, er 0, er 1, er 2, eb, ea]
  simp only [Ideal.addf_def, Ideal.mulf_def, Ideal.hostUnary_tanh_def]
  rfl

/-- The second branch's last stage at channel `c`, position `m` is the same network at its own shifted input. -/
theorem lo_net (c : Fin 320) (m : Fin 16384) :
    val_main_v77 (F := Ideal) x0 x1 x2 x3 x4 x5 x6 x7 x8 x9 x10 x11 x12 (ix3 c 0 m)
      = Cert.Spec.net (Cert.Target.wrow (val_main_v4 (F := Ideal) x1) (val_main_v13 (F := Ideal) x2) (val_main_v22 (F := Ideal) x3)
          (val_main_v31 (F := Ideal) x4) c)
        (Cert.Target.prow (val_main_v8 (F := Ideal) x5) (val_main_v17 (F := Ideal) x6) (val_main_v26 (F := Ideal) x7)
          (val_main_v35 (F := Ideal) x8) c)
        (Cert.Target.prow x9 x10 x11 x12 c)
        (val_main_v41 (F := Ideal) x0 (ix3 c 0 m)) := by
  rw [lo4, lo3, lo3, lo3, lo2, lo2, lo2, lo1, lo1, lo1, v42_eq, v51_eq, v60_eq, v69_eq, v46_eq, v55_eq, v64_eq, v73_eq]
  rfl

end Cert.RefValue

end
-- ==== Proof.RefValue.lean ====
import proofs.«122539_j4982162063467_2_alg».proof.Proof.RefValueA
import proofs.«122539_j4982162063467_2_alg».proof.Proof.RefValueB

/-!
The reference program computes `Cert.Target.result`.

The element at `[n, c, h, w]` of the result is read through the final transpose and reshape at channel `c`,
position `n·1024 + h·32 + w` of the flattened array, and that position of the flattened input is the input
element at `[n, c, h, w]` again. There the two branches are the channel's network at the element plus and
minus one half, and the remaining operations — minus the sign of their sum, the two logistic values written as
`1 / (1 + exp (−·))`, the absolute difference, the floor — are `Cert.Spec.likelihood` operation for operation.
-/

noncomputable section

namespace Cert.RefValue

open Cert.ReferenceIdeal Cert.ReferenceIdeal.Read Idealize.ShloMosaic Idealize.ShloMosaic.ValueIdx

variable (x0 : (⟨S16x320x32x32, .f32⟩ : BufTy).Contents (Elt Ideal))
  (x1 : (⟨S320x3x1, .f32⟩ : BufTy).Contents (Elt Ideal))
  (x2 x3 : (⟨S320x3x3, .f32⟩ : BufTy).Contents (Elt Ideal))
  (x4 : (⟨S320x1x3, .f32⟩ : BufTy).Contents (Elt Ideal))
  (x5 x6 x7 : (⟨S320x3x1, .f32⟩ : BufTy).Contents (Elt Ideal))
  (x8 : (⟨S320x1x1, .f32⟩ : BufTy).Contents (Elt Ideal))
  (x9 x10 x11 : (⟨S320x3x1, .f32⟩ : BufTy).Contents (Elt Ideal))
  (x12 : (⟨S320x1x1, .f32⟩ : BufTy).Contents (Elt Ideal))

/-- The position of `[n, ·, h, w]` on the flattened axis. -/
def pos (n : Fin 16) (h w : Fin 32) : Fin 16384 :=
  ⟨n.val * 1024 + h.val * 32 + w.val, by have := n.isLt; have := h.isLt; have := w.isLt; omega⟩

/-- Reading the result at `[n, c, h, w]` through the final transpose and reshape lands at channel `c`, position `pos n h w`. -/
theorem idx_out (n : Fin 16) (c : Fin 320) (h w : Fin 32) :
    idx_main_v97 (idx_main_v98 (ix4 n c h w)) = ix3 c 0 (pos n h w) := by
  have hn := n.isLt; have hc := c.isLt; have hh := h.isLt; have hw := w.isLt
  funext a
  match a with
  | ⟨0, _⟩ =>
    exact Fin.ext (by
      show (((c.val * 16 + n.val) * 32 + h.val) * 32 + w.val) / 16384 = c.val
      omega)
  | ⟨1, _⟩ => rfl
  | ⟨2, _⟩ =>
    exact Fin.ext (by
      show (((c.val * 16 + n.val) * 32 + h.val) * 32 + w.val) % 16384 = n.val * 1024 + h.val * 32 + w.val
      omega)

/-- Reading the flattened input at channel `c`, position `pos n h w` through the first reshape and transpose lands at `[n, c, h, w]`. -/
theorem idx_in (n : Fin 16) (c : Fin 320) (h w : Fin 32) :
    idx_main_v0 (idx_main_v1 (ix3 c 0 (pos n h w))) = ix4 n c h w := by
  have hn := n.isLt; have hc := c.isLt; have hh := h.isLt; have hw := w.isLt
  funext a
  match a with
  | ⟨0, _⟩ =>
    exact Fin.ext (by
      show ((c.val * 1 + 0) * 16384 + (n.val * 1024 + h.val * 32 + w.val)) / 1024 % 16 = n.val
      omega)
  | ⟨1, _⟩ =>
    exact Fin.ext (by
      show ((c.val * 1 + 0) * 16384 + (n.val * 1024 + h.val * 32 + w.val)) / 16384 = c.val
      omega)
  | ⟨2, _⟩ =>
    exact Fin.ext (by
      show ((c.val * 1 + 0) * 16384 + (n.val * 1024 + h.val * 32 + w.val)) / 32 % 32 = h.val
      omega)
  | ⟨3, _⟩ =>
    exact Fin.ext (by
      show ((c.val * 1 + 0) * 16384 + (n.val * 1024 + h.val * 32 + w.val)) % 32 = w.val
      omega)

/-- The reference's result at `[n, c, h, w]` is the likelihood of the input element there under channel `c`'s network. -/
theorem value_at (n : Fin 16) (c : Fin 320) (h w : Fin 32) :
    val_main_v100 (F := Ideal) x0 x1 x2 x3 x4 x5 x6 x7 x8 x9 x10 x11 x12 (ix4 n c h w)
      = Cert.Spec.likelihood
        (Cert.Target.wrow (val_main_v4 (F := Ideal) x1) (val_main_v13 (F := Ideal) x2) (val_main_v22 (F := Ideal) x3)
          (val_main_v31 (F := Ideal) x4) c)
        (Cert.Target.prow (val_main_v8 (F := Ideal) x5) (val_main_v17 (F := Ideal) x6) (val_main_v26 (F := Ideal) x7)
          (val_main_v35 (F := Ideal) x8) c)
        (Cert.Target.prow x9 x10 x11 x12 c)
        (x0 (ix4 n c h w)) := by
  rw [val_main_v100_apply, val_main_v99_apply, val_main_cst_5_apply, val_main_v98_apply, val_main_v97_apply, idx_out,
    val_main_v96_apply, val_main_v95_apply, val_main_v87_apply, val_main_v94_apply, val_main_v86_apply,
    val_main_v93_apply, val_main_cst_2_apply, val_main_cst_4_apply, val_main_v85_apply, val_main_v92_apply,
    val_main_v84_apply, val_main_v91_apply, val_main_cst_1_apply, val_main_cst_3_apply, val_main_v83_apply,
    val_main_v90_apply, val_main_v82_apply, val_main_v89_apply, val_main_v81_apply, val_main_v88_apply,
    val_main_v80_apply, val_main_v79_apply, val_main_v78_apply, up_net, lo_net, val_main_v3_apply,
    val_main_v41_apply, val_main_v2_apply, val_main_v40_apply, val_main_cst_apply, val_main_cst_0_apply,
    val_main_v1_apply, val_main_v0_apply, idx_in]
  simp only [Ideal.ofBits_def, Ideal.addf_def, Ideal.subf_def, Ideal.mulf_def, Ideal.maximumf_def,
    Ideal.hostDivf_def, Ideal.hostUnary_exp_def, Ideal.hostUnary_sign_def, Ideal.hostNegf_def, Ideal.negf_def,
    Ideal.hostAbsf_def, Ideal.ofBits_one_f32]
  rfl

/-- The reference program's result is the target array, with the prepared weights (softplus of the raw ones)
    and gates (tanh of the raw ones) as the target's parameters. -/
theorem reference_value :
    val_main_v100 (F := Ideal) x0 x1 x2 x3 x4 x5 x6 x7 x8 x9 x10 x11 x12
      = Cert.Target.result x0
          (val_main_v4 (F := Ideal) x1) (val_main_v13 (F := Ideal) x2)
          (val_main_v22 (F := Ideal) x3) (val_main_v31 (F := Ideal) x4)
          (val_main_v8 (F := Ideal) x5) (val_main_v17 (F := Ideal) x6)
          (val_main_v26 (F := Ideal) x7) (val_main_v35 (F := Ideal) x8)
          x9 x10 x11 x12 := by
  funext i
  rw [eq_ix4 i]
  exact value_at x0 x1 x2 x3 x4 x5 x6 x7 x8 x9 x10 x11 x12 (i 0) (i 1) (i 2) (i 3)

end Cert.RefValue

end
-- ==== Proof.lean ====
/-
  The likelihood kernel against its reference, over the extended reals.

  Both programs compute, for every input element x[n, c, h, w], the likelihood of that element under channel
  c's small gated network (layer widths 1 → 3 → 3 → 3 → 1): the network is evaluated at x + 1/2 and x − 1/2,
  and the likelihood is |σ(g·u) − σ(g·l)| with g minus the sign of u + l, floored at the float nearest 1e-9.
  The weights enter through a softplus and the gates through a tanh, prepared by the same host operations in
  both programs.

  The kernel program packs the prepared parameters into three narrow tables, walks the batch axis as a grid of
  sixteen points, and at each point evaluates the network on a (320 × 1024) slab with every small matrix
  product unrolled into multiply-adds of table columns spread along the lanes. The reference transposes the
  input to channel-major order, runs the layers as batched matrix products with contraction lengths 1 and 3,
  and transposes back. A sum over three terms is the unrolled sum, the sign written with comparisons and
  selections is the sign function, the logistic is by definition 1 / (1 + e^(−x)); no law that needs finite
  values is used, so the precondition is never opened.

  The modules: Spec (the element function), Target (the result array from the prepared parameters),
  WordFrame and IdealFrame (each kernel program's run, with what every grid point stores), Elem (what a grid
  point stores, at an element), Blocks (from slabs to the array), Tables (the packed tables' rows),
  KernelValue (the kernel program's result), RefValueA / RefValueB / RefValue (the reference's result).
-/
import proofs.«122539_j4982162063467_2_alg».proof.Defs
import proofs.«122539_j4982162063467_2_alg».proof.Proof.Gen.Kernel
import proofs.«122539_j4982162063467_2_alg».proof.Proof.Gen.KernelIdeal
import proofs.«122539_j4982162063467_2_alg».proof.Proof.Gen.ReferenceIdeal
import proofs.«122539_j4982162063467_2_alg».proof.Proof.Gen.Pre_finite_inputs
import proofs.«122539_j4982162063467_2_alg».proof.Proof.WordFrame
import proofs.«122539_j4982162063467_2_alg».proof.Proof.KernelValue
import proofs.«122539_j4982162063467_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs to the end, faults nowhere, and leaves its arguments unchanged. -/
theorem frame_word : Cert.frame_Kernel := fun m ρ _ => Cert.Kernel.Frm.frame m ρ

/-- So does its idealization. -/
theorem frame_ideal : Cert.frame_KernelIdeal := fun m ρ _ => Cert.KernelIdeal.Frm.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: one with the sign bit of a value is −1 where the value is negative
    and 1 elsewhere. -/
theorem preserves : Cert.preserves_Kernel_KernelIdeal :=
  IdealRules.sign_bit.statement Cert.KernelIdeal.S320x1024 .f32

/-- Both programs end with the same result array: the likelihood of each input element under its channel's
    network, with the weights' softplus and the gates' tanh prepared by the same host operations. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨?_, (h c).2⟩)
    (Cert.ReferenceIdeal.Value.run (F := Ideal) m' ρ')
  obtain ⟨e0, e1, e2, e3, e4, e5, e6, e7, e8, e9, e10, e11, e12⟩ := hagree c
  rw [(h c).1, Cert.ReferenceIdeal.Read.val_main_v100_eq, Cert.RefValue.reference_value,
    e0, e1, e2, e3, e4, e5, e6, e7, e8, e9, e10, e11, e12]
  rfl

theorem claim : Cert.Claim :=
  ⟨Cert.Kernel.Gen.facts, Cert.KernelIdeal.Gen.facts, Cert.ReferenceIdeal.Gen.facts, Cert.Pre_finite_inputs.Gen.facts,
    frame_word, frame_ideal, frame_reference, preserves, algebraic⟩

end Cert.Proof

end
